-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg12 : FVec F S128x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x128 .f32) (main_arg11 : FVec F S128 .f32) (main_arg12 : FVec F S128x128 .f32) (main_arg13 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S20000x128 .f32) (main_arg1 : IVec S2x640000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S2000x128 : Shape := ⟨2, ![2000, 128]⟩

abbrev nBuf : Space → Nat
  | .hbm => 66
  | .vmem => 30
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .f32⟩
  | .hbm, ⟨28, _⟩ => ⟨S20000x128, .f32⟩
  | .hbm, ⟨29, _⟩ => ⟨S640000x1, .i32⟩
  | .hbm, ⟨30, _⟩ => ⟨S20000x128, .f32⟩
  | .hbm, ⟨31, _⟩ => ⟨S1x128, .f32⟩
  | .hbm, ⟨32, _⟩ => ⟨S1x128, .f32⟩
  | .hbm, ⟨33, _⟩ => ⟨S20000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S_, .f32⟩
  | .hbm, ⟨44, _⟩ => ⟨S20000x128, .f32⟩
  | .hbm, ⟨45, _⟩ => ⟨S640000x1, .i32⟩
  | .hbm, ⟨46, _⟩ => ⟨S20000x128, .f32⟩
  | .hbm, ⟨47, _⟩ => ⟨S1x128, .f32⟩
  | .hbm, ⟨48, _⟩ => ⟨S1x128, .f32⟩
  | .hbm, ⟨49, _⟩ => ⟨S20000x128, .f32⟩
  | .hbm, ⟨50, _⟩ => ⟨S_, .i32⟩
  | .hbm, ⟨51, _⟩ => ⟨S640000, .i32⟩
  | .hbm, ⟨52, _⟩ => ⟨S640000, .i1⟩
  | .hbm, ⟨53, _⟩ => ⟨S_, .i32⟩
  | .hbm, ⟨54, _⟩ => ⟨S640000, .i32⟩
  | .hbm, ⟨55, _⟩ => ⟨S640000, .i32⟩
  | .hbm, ⟨56, _⟩ => ⟨S640000, .i32⟩
  | .hbm, ⟨57, _⟩ => ⟨S640000x1, .i32⟩
  | .hbm, ⟨58, _⟩ => ⟨S640000x128, .f32⟩
  | .hbm, ⟨59, _⟩ => ⟨S_, .f32⟩
  | .hbm, ⟨60, _⟩ => ⟨S20000x128, .f32⟩
  | .hbm, ⟨61, _⟩ => ⟨S640000x1, .i32⟩
  | .hbm, ⟨62, _⟩ => ⟨S20000x128, .f32⟩
  | .hbm, ⟨63, _⟩ => ⟨S1x128, .f32⟩
  | .hbm, ⟨64, _⟩ => ⟨S1x128, .f32⟩
  | .hbm, ⟨65, _⟩ => ⟨S20000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_4 : Ref sig .tc := ⟨.hbm, 50, rfl⟩
abbrev main_v30 : Ref sig .tc := ⟨.hbm, 51, rfl⟩
abbrev main_v31 : Ref sig .tc := ⟨.hbm, 52, rfl⟩
abbrev main_c_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S20000x128.size a
  hwx0_1 : ∀ i : grid0.Coords, EltTy.bits .f32 = 32 ∨ (Rect.block (s := S20000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S20000x128.size a
  hwx0_6 : ∀ i : grid0.Coords, EltTy.bits .f32 = 32 ∨ (Rect.block (s := S20000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S20000x128.size a
  hwx1_0 : ∀ i : grid1.Coords, EltTy.bits .f32 = 32 ∨ (Rect.block (s := S20000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S20000x128.size a
  hwx1_1 : ∀ i : grid1.Coords, EltTy.bits .f32 = 32 ∨ (Rect.block (s := S20000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S20000x128.size a
  hwx1_6 : ∀ i : grid1.Coords, EltTy.bits .f32 = 32 ∨ (Rect.block (s := S20000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S20000x128.size a
  hwx2_1 : ∀ i : grid2.Coords, EltTy.bits .f32 = 32 ∨ (Rect.block (s := S20000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S20000x128.size a
  hwx2_6 : ∀ i : grid2.Coords, EltTy.bits .f32 = 32 ∨ (Rect.block (s := S20000x128) S2000x128.size (cc2_transform_6 i) (hinb2_6 i)).WholeWords (EltTy.packing .f32)

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S20000x128 : Shape := ⟨2, ![20000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩

abbrev nBuf : Space → Nat
  | .hbm => 102
  | .vmem => 0
  | .smem => 0
  | _ => 0

abbrev bufTy : (tb : Table) → Fin (tcTables nBuf tb) → BufTy
  | .hbm, ⟨0, _⟩ => ⟨S20000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S1x640000, .i32⟩
  | .hbm, ⟨15, _⟩ => ⟨S640000, .i32⟩
  | .hbm, ⟨16, _⟩ => ⟨S1x640000, .i32⟩
  | .hbm, ⟨17, _⟩ => ⟨S640000, .i32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .f32⟩
  | .hbm, ⟨28, _⟩ => ⟨S20000x128, .f32⟩
  | .hbm, ⟨29, _⟩ => ⟨S640000x1, .i32⟩
  | .hbm, ⟨30, _⟩ => ⟨S20000x128, .f32⟩
  | .hbm, ⟨31, _⟩ => ⟨S20000x128, .f32⟩
  | .hbm, ⟨32, _⟩ => ⟨S20000x128, .f32⟩
  | .hbm, ⟨33, _⟩ => ⟨S1x128, .f32⟩
  | .hbm, ⟨34, _⟩ => ⟨S20000x128, .f32⟩
  | .hbm, ⟨35, _⟩ => ⟨S20000x128, .f32⟩
  | .hbm, ⟨36, _⟩ => ⟨S_, .f32⟩
  | .hbm, ⟨37, _⟩ => ⟨S20000x128, .f32⟩
  | .hbm, ⟨38, _⟩ => ⟨S20000x128, .f32⟩
  | .hbm, ⟨39, _⟩ => ⟨S20000x128, .f32⟩
  | .hbm, ⟨40, _⟩ => ⟨S1x128, .f32⟩
  | .hbm, ⟨41, _⟩ => ⟨S20000x128, .f32⟩
  | .hbm, ⟨42, _⟩ => ⟨S20000x128, .f32⟩
  | .hbm, ⟨43, _⟩ => ⟨S_, .f32⟩
  | .hbm, ⟨44, _⟩ => ⟨S20000x128, .f32⟩
  | .hbm, ⟨45, _⟩ => ⟨S20000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S20000x128, .f32⟩
  | .hbm, ⟨57, _⟩ => ⟨S640000x1, .i32⟩
  | .hbm, ⟨58, _⟩ => ⟨S20000x128, .f32⟩
  | .hbm, ⟨59, _⟩ => ⟨S20000x128, .f32⟩
  | .hbm, ⟨60, _⟩ => ⟨S20000x128, .f32⟩
  | .hbm, ⟨61, _⟩ => ⟨S1x128, .f32⟩
  | .hbm, ⟨62, _⟩ => ⟨S20000x128, .f32⟩
  | .hbm, ⟨63, _⟩ => ⟨S20000x128, .f32⟩
  | .hbm, ⟨64, _⟩ => ⟨S_, .f32⟩
  | .hbm, ⟨65, _⟩ => ⟨S20000x128, .f32⟩
  | .hbm, ⟨66, _⟩ => ⟨S20000x128, .f32⟩
  | .hbm, ⟨67, _⟩ => ⟨S20000x128, .f32⟩
  | .hbm, ⟨68, _⟩ => ⟨S1x128, .f32⟩
  | .hbm, ⟨69, _⟩ => ⟨S20000x128, .f32⟩
  | .hbm, ⟨70, _⟩ => ⟨S20000x128, .f32⟩
  | .hbm, ⟨71, _⟩ => ⟨S_, .f32⟩
  | .hbm, ⟨72, _⟩ => ⟨S20000x128, .f32⟩
  | .hbm, ⟨73, _⟩ => ⟨S20000x128, .f32⟩
  | .hbm, ⟨74, _⟩ => ⟨S_, .i32⟩
  | .hbm, ⟨75, _⟩ => ⟨S640000, .i32⟩
  | .hbm, ⟨76, _⟩ => ⟨S640000, .i1⟩
  | .hbm, ⟨77, _⟩ => ⟨S_, .i32⟩
  | .hbm, ⟨78, _⟩ => ⟨S640000, .i32⟩
  | .hbm, ⟨79, _⟩ => ⟨S640000, .i32⟩
  | .hbm, ⟨80, _⟩ => ⟨S640000, .i32⟩
  | .hbm, ⟨81, _⟩ => ⟨S640000x1, .i32⟩
  | .hbm, ⟨82, _⟩ => ⟨S640000x128, .f32⟩
  | .hbm, ⟨83, _⟩ => ⟨S_, .f32⟩
  | .hbm, ⟨84, _⟩ => ⟨S20000x128, .f32⟩
  | .hbm, ⟨85, _⟩ => ⟨S640000x1, .i32⟩
  | .hbm, ⟨86, _⟩ => ⟨S20000x128, .f32⟩
  | .hbm, ⟨87, _⟩ => ⟨S20000x128, .f32⟩
  | .hbm, ⟨88, _⟩ => ⟨S20000x128, .f32⟩
  | .hbm, ⟨89, _⟩ => ⟨S1x128, .f32⟩
  | .hbm, ⟨90, _⟩ => ⟨S20000x128, .f32⟩
  | .hbm, ⟨91, _⟩ => ⟨S20000x128, .f32⟩
  | .hbm, ⟨92, _⟩ => ⟨S_, .f32⟩
  | .hbm, ⟨93, _⟩ => ⟨S20000x128, .f32⟩
  | .hbm, ⟨94, _⟩ => ⟨S20000x128, .f32⟩
  | .hbm, ⟨95, _⟩ => ⟨S20000x128, .f32⟩
  | .hbm, ⟨96, _⟩ => ⟨S1x128, .f32⟩
  | .hbm, ⟨97, _⟩ => ⟨S20000x128, .f32⟩
  | .hbm, ⟨98, _⟩ => ⟨S20000x128, .f32⟩
  | .hbm, ⟨99, _⟩ => ⟨S_, .f32⟩
  | .hbm, ⟨100, _⟩ => ⟨S20000x128, .f32⟩
  | .hbm, ⟨101, _⟩ => ⟨S20000x128, .f32⟩
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call0_cst : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_cst : Ref sig .tc := ⟨.hbm, 43, rfl⟩
abbrev main_call1_v0 : Ref sig .tc := ⟨.hbm, 44, rfl⟩
abbrev main_v24 : Ref sig .tc := ⟨.hbm, 45, rfl⟩
abbrev main_c_1 : Ref sig .tc := ⟨.hbm, 46, rfl⟩
abbrev main_v25 : Ref sig .tc := ⟨.hbm, 47, rfl⟩
abbrev main_v26 : Ref sig .tc := ⟨.hbm, 48, rfl⟩
abbrev main_c_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call2_cst : Ref sig .tc := ⟨.hbm, 64, rfl⟩
abbrev main_call2_v0 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call3_cst : Ref sig .tc := ⟨.hbm, 71, rfl⟩
abbrev main_call3_v0 : Ref sig .tc := ⟨.hbm, 72, rfl⟩
abbrev main_v45 : Ref sig .tc := ⟨.hbm, 73, rfl⟩
abbrev main_c_4 : Ref sig .tc := ⟨.hbm, 74, rfl⟩
abbrev main_v46 : Ref sig .tc := ⟨.hbm, 75, rfl⟩
abbrev main_v47 : Ref sig .tc := ⟨.hbm, 76, rfl⟩
abbrev main_c_5 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_6 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_call4_cst : Ref sig .tc := ⟨.hbm, 92, rfl⟩
abbrev main_call4_v0 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_call5_cst : Ref sig .tc := ⟨.hbm, 99, rfl⟩
abbrev main_call5_v0 : Ref sig .tc := ⟨.hbm, 100, rfl⟩
abbrev main_v66 : Ref sig .tc := ⟨.hbm, 101, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  gather_S20000x128_S640000x1_S640000x128_1_0_n_n_0_1_1128_wf : GatherDims.WF S20000x128 S640000x1 S640000x128 [1] [0] [] [0] [] 1 ![1, 128]
  scatter_S20000x128_S640000x1_S640000x128_1_0_0_1_wf : ScatterDims.WF S20000x128 S640000x1 S640000x128 [1] [0] [0] 1
  dot_S20000x128_S128x128_S20000x128_1_0_0_1_n_n_wf : DotDims.WF S20000x128 S128x128 S20000x128 [1] [0] [0] [1] [] []

variable [Facts₀]

def gather_S20000x128_S640000x1_S640000x128_1_0_n_n_0_1_1128 : GatherDims S20000x128 S640000x1 S640000x128 where
  offsetDims := [1]
  collapsedSliceDims := [0]
  operandBatchingDims := []
  startIndicesBatchingDims := []
  startIndexMap := [0]
  indexVectorDim := 1
  sliceSizes := ![1, 128]
  wf := gather_S20000x128_S640000x1_S640000x128_1_0_n_n_0_1_1128_wf
def scatter_S20000x128_S640000x1_S640000x128_1_0_0_1 : ScatterDims S20000x128 S640000x1 S640000x128 where
  updateWindowDims := [1]
  insertedWindowDims := [0]
  scatterDimsToOperandDims := [0]
  indexVectorDim := 1
  wf := scatter_S20000x128_S640000x1_S640000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf

class Facts : Prop extends Facts₀ where

variable [Facts]
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibRowWise.lean ====
/-
  Operations that act on each row of an [m, n] array by itself, read at an entry, on the extended reals.

  For an array Z with m rows and n columns:
  * a length-n vector laid out as a [1, n] row and repeated down the m rows reads, at (a, b), the vector at b
    (`biasRow_apply`); a length-m vector laid out as an [m, 1] column and repeated across the n columns reads, at
    (a, b), the vector at a (`column_apply`);
  * reducing over the column axis inserts the column coordinate at position 1 (`lift_row`), so the host's maximum
    and sum over that axis read, at row a, the fold of max (the sum) over the row's n entries
    (`hostRowMax_apply`, `hostRowSum_apply`), and so do the vector reductions (`vecRowMax_apply`, `vecRowSum_apply`);
  * `logSoftmaxRow y q = (y q - max y) - log (Σ_k exp (y k - max y))` is the logarithm of the softmax of one row, and
    the host's chain of operations for it reads, at (a, b), that function of row a (`hostLogSoftmax_apply`);
  * the host's sum of an array and a bias row, clamped below at zero, reads at (a, b) max (Z(a, b) + v(b), 0)
    (`hostBiasRelu_apply`).
  Nothing here depends on m: a block of rows and the whole array are read by the same lemma.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowWise

open Idealize.ShloMosaic Idealize.ShloMosaic.ValueIdx

variable {α : Type}

/-- A vector as a row repeated down the rows, the host way, read at an entry. -/
theorem biasRow_apply {m n : ℕ} (v : (⟨1, ![n]⟩ : Shape).Idx → α)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    broadcastInDim ⟨2, ![m, n]⟩ ![0, 1] g2 (broadcastInDim ⟨2, ![1, n]⟩ ![1] g1 v) (ix2 a b) = v (ix1 b) := by
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

/-- An [m, 1] column repeated across the n columns, the host way, reads at (a, b) the column at row a. -/
theorem colSpread_apply {m n : ℕ} (w : (⟨2, ![m, 1]⟩ : Shape).Idx → α)
    (g2 : (⟨2, ![m, 1]⟩ : Shape).BroadcastsInDim ⟨2, ![m, n]⟩ ![0, 1]) (a : Fin m) (b : Fin n) :
    broadcastInDim ⟨2, ![m, n]⟩ ![0, 1] g2 w (ix2 a b) = w (ix2 a (0 : Fin 1)) := by
  have ha : a.val = if m = 1 then 0 else a.val := by
    split
    · have := a.isLt; omega
    · rfl
  have hk2 : ∀ ax : Fin 2, ((ix2 a (0 : Fin 1) : (⟨2, ![m, 1]⟩ : Shape).Idx) ax).val
      = if (⟨2, ![m, 1]⟩ : Shape).size ax = 1 then 0 else ((ix2 a b : (⟨2, ![m, n]⟩ : Shape).Idx) ((![0, 1] : Fin 2 → Fin 2) ax)).val := fun ax =>
    match ax with
    | ⟨0, _⟩ => ha
    | ⟨1, _⟩ => rfl
  rw [broadcastInDim_apply _ g2 _ (ix2 a b) (ix2 a (0 : Fin 1)) hk2]

/-- A length-m vector laid out as an [m, 1] column, the host way, reads at (a, 0) the vector at a. -/
theorem colLift_apply {m : ℕ} (v : (⟨1, ![m]⟩ : Shape).Idx → α)
    (g1 : (⟨1, ![m]⟩ : Shape).BroadcastsInDim ⟨2, ![m, 1]⟩ ![0]) (a : Fin m) :
    broadcastInDim ⟨2, ![m, 1]⟩ ![0] g1 v (ix2 a (0 : Fin 1)) = v (ix1 a) := by
  have ha : a.val = if m = 1 then 0 else a.val := by
    split
    · have := a.isLt; omega
    · rfl
  have hk1 : ∀ ax : Fin 1, ((ix1 a : (⟨1, ![m]⟩ : Shape).Idx) ax).val
      = if (⟨1, ![m]⟩ : Shape).size ax = 1 then 0 else ((ix2 a (0 : Fin 1) : (⟨2, ![m, 1]⟩ : Shape).Idx) ((![0] : Fin 1 → Fin 2) ax)).val := fun ax =>
    match ax with
    | ⟨0, _⟩ => ha
  rw [broadcastInDim_apply _ g1 v (ix2 a (0 : Fin 1)) (ix1 a) hk1]

/-- A vector as a column repeated across the columns, the host way, read at an entry. -/
theorem column_apply {m n : ℕ} (v : (⟨1, ![m]⟩ : Shape).Idx → α)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (broadcastInDim ⟨2, ![m, 1]⟩ ![0] g1 v) (ix2 a b) = v (ix1 a) := by
  rw [colSpread_apply, colLift_apply]

/-- Over row a, the index with column coordinate k inserted is (a, k). -/
theorem lift_row {m n : ℕ} (h : (⟨2, ![m, n]⟩ : Shape).Reduces [1] ⟨1, ![m]⟩) (a : Fin m)
    (k : Fin ((⟨2, ![m, n]⟩ : Shape).size 1)) :
    h.lift (ix1 a) k = ix2 a (k : Fin n) := by
  funext c
  apply Fin.ext
  rw [Shape.Reduces.lift_val]
  unfold Shape.Reduces.liftVal
  match c with
  | ⟨0, _⟩ => rfl
  | ⟨1, _⟩ => rfl

/-- The host's maximum over the column axis, at row a: the fold of max over the row's entries. -/
theorem hostRowMax_apply {m n : ℕ} (Z : FVec Ideal ⟨2, ![m, n]⟩ .f32) (init : BitVec 32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduce FloatOps.maximumf Z (constant ⟨0, ![]⟩ .f32 init) h' hu (ix1 a)
      = (Finset.univ : Finset (Fin n)).fold max (Ideal.ofBits .f32 init) (fun k => Z (ix2 a k)) := by
  rw [Host.reduce_eq_fold_single FloatOps.maximumf Z _ h' h hu (ix1 a)]
  have e : (Z ∘ h.lift (ix1 a)) = fun k : Fin n => Z (ix2 a k) := funext fun k => congrArg Z (lift_row h a k)
  rw [e]
  rfl

/-- The host's sum over the column axis from zero, at row a: the sum of the row's entries. -/
theorem hostRowSum_apply {m n : ℕ} (Z : FVec Ideal ⟨2, ![m, n]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduceAdd Z (constant ⟨0, ![]⟩ .f32 0x00000000#32) h' hu (ix1 a) = ∑ k : Fin n, Z (ix2 a k) := by
  show Ideal.hostReduceAdd h' Z (Ideal.ofBits .f32 0x00000000#32) (ix1 a) = _
  rw [Ideal.hostReduceAdd_single h' h, Ideal.ofBits_zero_f32, zero_add]
  exact Finset.sum_congr rfl fun k _ => congrArg Z (lift_row h a k)

/-- A vector maximum over the column axis, at row a: the fold of max over the row's entries. -/
theorem vecRowMax_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.maximumf.neutral .f32 hφ) (a : Fin m) :
    multiReduction .maximumf [1] ⟨1, ![m]⟩ Z acc h hφ hacc (ix1 a)
      = (Finset.univ : Finset (Fin n)).fold max (Ideal.ofBits .f32 acc) (fun k => Z (ix2 a k)) := by
  rw [Ideal.multiReduction_maximumf_single]
  have e : (Z ∘ h.lift (ix1 a)) = fun k : Fin n => Z (ix2 a k) := funext fun k => congrArg Z (lift_row h a k)
  rw [e]
  rfl

/-- A vector sum over the column axis, at row a: the sum of the row's entries. -/
theorem vecRowSum_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (a : Fin m) :
    multiReduction .add [1] ⟨1, ![m]⟩ Z acc h hφ hacc (ix1 a) = ∑ k : Fin n, Z (ix2 a k) := by
  rw [Ideal.multiReduction_add_single]
  exact Finset.sum_congr rfl fun k _ => congrArg Z (lift_row h a k)

/-- The largest entry of a row (from -∞, kept as its f32 word). -/
def rowMax {n : ℕ} (y : Fin n → EReal) : EReal :=
  (Finset.univ : Finset (Fin n)).fold max (Ideal.ofBits .f32 0xFF800000#32) y

/-- The logarithm of the softmax of one row, at column q. -/
def logSoftmaxRow {n : ℕ} (y : Fin n → EReal) (q : Fin n) : EReal :=
  (y q - rowMax y) - Ideal.log (∑ k : Fin n, Ideal.exp (y k - rowMax y))

/-- The f32 word of -∞ is neutral for the maximum of extended reals. -/
theorem max_neg_inf (z : EReal) : max (Ideal.ofBits .f32 0xFF800000#32) z = z := by
  have hb : Ideal.ofBits .f32 0xFF800000#32 = (⊥ : EReal) := by simp [Ideal.ofBits, Ideal.ieee]
  rw [hb]; exact max_bot_left z

/-- The host's log-softmax over the column axis: the row maximum from -∞ (and once more against -∞), subtracted;
    the exponentials summed from zero; the logarithm of the sum subtracted. -/
def hostLogSoftmax {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (hu : 0 < (⟨0, ![]⟩ : Shape).numel)
    (Z : FVec Ideal ⟨2, ![m, n]⟩ .f32) : FVec Ideal ⟨2, ![m, n]⟩ .f32 :=
  subf
    (subf Z (broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu)))))
    (broadcastInDim ⟨2, ![m, n]⟩ ![0, 1] g2 (Host.log (broadcastInDim ⟨2, ![m, 1]⟩ ![0] g1
      (Host.reduceAdd
        (Host.exp (subf Z (broadcastInDim ⟨2, ![m, n]⟩ ![0, 1] g2 (broadcastInDim ⟨2, ![m, 1]⟩ ![0] g1
          (maximumf (broadcastInDim ⟨1, ![m]⟩ ![] gN (constant (F := Ideal) ⟨0, ![]⟩ .f32 0xFF800000#32))
            (Host.reduce FloatOps.maximumf Z (constant (F := Ideal) ⟨0, ![]⟩ .f32 0xFF800000#32) h' hu))))))
        (constant (F := Ideal) ⟨0, ![]⟩ .f32 0x00000000#32) h' hu))))

/-- The maximum the host subtracts, repeated across the columns, reads at (a, b) the largest entry of row a. -/
theorem hostShift_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu))) (ix2 a b)
      = rowMax (fun k => Z (ix2 a k)) := by
  rw [column_apply]
  show max (Ideal.ofBits .f32 0xFF800000#32)
      (Host.reduce FloatOps.maximumf Z (constant (F := Ideal) ⟨0, ![]⟩ .f32 0xFF800000#32) h' hu (ix1 a)) = _
  rw [max_neg_inf, hostRowMax_apply Z _ h' h hu a]
  rfl

/-- The logarithm of a column vector, taken on the [m, 1] column and then repeated across the columns, reads at
    (a, b) the logarithm of the vector at a. -/
theorem logColumn_apply {m n : ℕ} (S : FVec Ideal ⟨1, ![m]⟩ .f32)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (Host.log (broadcastInDim ⟨2, ![m, 1]⟩ ![0] g1 S)) (ix2 a b)
      = Ideal.log (S (ix1 a)) := by
  rw [colSpread_apply]
  show Ideal.log (broadcastInDim ⟨2, ![m, 1]⟩ ![0] g1 S (ix2 a (0 : Fin 1))) = _
  rw [colLift_apply]

/-- The host's log-softmax reads, at (a, b), the log-softmax of row a at column b. -/
theorem hostLogSoftmax_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    hostLogSoftmax gN g1 g2 h' hu Z (ix2 a b) = logSoftmaxRow (fun k => Z (ix2 a k)) b := by
  unfold hostLogSoftmax logSoftmaxRow
  show (Z (ix2 a b) - _) - _ = _
  rw [hostShift_apply gN g1 g2 h' h hu Z a b, logColumn_apply, hostRowSum_apply _ h' h hu a]
  refine congrArg (fun s => (Z (ix2 a b) - rowMax (fun k => Z (ix2 a k))) - Ideal.log s) ?_
  refine Finset.sum_congr rfl fun k _ => ?_
  show Ideal.exp (Z (ix2 a k) - _) = _
  rw [hostShift_apply gN g1 g2 h' h hu Z a k]

/-- The host's sum of an array and a bias row, clamped below at zero, at an entry. -/
theorem hostBiasRelu_apply {m n : ℕ} (Z : FVec Ideal ⟨2, ![m, n]⟩ .f32) (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![]) (a : Fin m) (b : Fin n) :
    maximumf (addf Z (broadcastInDim ⟨2, ![m, n]⟩ ![0, 1] g2 (broadcastInDim ⟨2, ![1, n]⟩ ![1] g1 v)))
        (broadcastInDim ⟨2, ![m, n]⟩ ![] g0 (constant (F := Ideal) ⟨0, ![]⟩ .f32 0x00000000#32)) (ix2 a b)
      = max (Z (ix2 a b) + v (ix1 b)) (Ideal.ofBits .f32 0x00000000#32) := by
  show max (Z (ix2 a b) + broadcastInDim ⟨2, ![m, n]⟩ ![0, 1] g2 (broadcastInDim ⟨2, ![1, n]⟩ ![1] g1 v) (ix2 a b)) _ = _
  rw [biasRow_apply]
  rfl

end Cert.RowWise

end
-- ==== Proof.LibPerceptron.lean ====
/-
  A dense layer with a rectifier, and two of them in a row, read one entry at a time on the extended reals.

  For a row x (k numbers), a k×n matrix W and a bias b (n numbers) the rectified dense layer is
      y c = max (Σ_d x d · W d c + b c, 0),
  and the two-layer perceptron of a row is that layer applied twice. Every output entry (r, q) of an array of rows depends
  on row r of the input and on nothing else, so the three ways of computing it below give the same number, term by term,
  with no use of finiteness (nothing is distributed, cancelled or reordered):
  * the host's way, over the whole [M, k] array at once: a plain product, the bias laid out as a [1, n] row and repeated
    down the M rows, a maximum with the zero array (hostDense);
  * a block's way, over an [m, k] block of rows: both operands of the product narrowed to a shorter float format (the
    identity on exact values), a plain product accumulated into zero, a [1, n] bias row repeated down the block, a maximum
    with the zero splat (blockDense; blockMlp is two of them);
  * rowsMlp: the array whose entry (r, q) is the perceptron of row r of Z + A at column q, with the biases given as
    [1, ·] rows. A block of rows computes the rows of rowsMlp it holds (blockMlp_rows), and rowsMlp with the biases of a
    host program laid out as rows is the host's two layers on Z + A (rowsMlp_eq_host).
  It rests on the plain product read at an entry as a sum (LibPlainMatmul for a product accumulated into zero,
  LibPlainDot for the host's) and on the host's bias row and rectifier read at an entry (LibRowWise).
-/
import Idealize.ShloMosaic.PureOps.Ideal.Laws
import Idealize.ShloMosaic.Lib.ValueIdx
import Idealize.ShloMosaic.Lib.ValueLayout
import Idealize.ShloMosaic.Lib.Pipeline.Value
import proofs.«138859_j47330539602050_1_alg».proof.Proof.LibPlainMatmul
import proofs.«138859_j47330539602050_1_alg».proof.Proof.LibPlainDot
import proofs.«138859_j47330539602050_1_alg».proof.Proof.LibRowWise

noncomputable section

open scoped BigOperators

namespace Cert.Perceptron

open Idealize.ShloMosaic Idealize.ShloMosaic.ValueIdx

/-- Zero, kept as the all-zero f32 word (the same word on every side: never evaluated). -/
abbrev zero : EReal := Ideal.ofBits .f32 0x00000000#32

/-- The rectified dense layer of one row: y c = max (Σ_d x d · W d c + b c, 0). -/
def denseRelu {k n : ℕ} (x : Fin k → EReal) (W : Fin k → Fin n → EReal) (b : Fin n → EReal) (c : Fin n) : EReal :=
  max (∑ d : Fin k, x d * W d c + b c) zero

/-- The two-layer perceptron of one row. -/
def mlpRow {k h n : ℕ} (x : Fin k → EReal) (W1 : Fin k → Fin h → EReal) (b1 : Fin h → EReal)
    (W2 : Fin h → Fin n → EReal) (b2 : Fin n → EReal) (q : Fin n) : EReal :=
  denseRelu (denseRelu x W1 b1) W2 b2 q

/-! ## The host's way -/

/-- The host's rectified dense layer over a whole array: X · W, plus the bias as a row repeated down the rows, clamped
    below at zero. -/
def hostDense {M k n : ℕ} (g1 : (⟨1, ![n]⟩ : Shape).BroadcastsInDim ⟨2, ![1, n]⟩ ![1])
    (g2 : (⟨2, ![1, n]⟩ : Shape).BroadcastsInDim ⟨2, ![M, n]⟩ ![0, 1])
    (g0 : (⟨0, ![]⟩ : Shape).BroadcastsInDim ⟨2, ![M, n]⟩ ![])
    (X : FVec Ideal ⟨2, ![M, k]⟩ .f32) (W : FVec Ideal ⟨2, ![k, n]⟩ .f32) (b : FVec Ideal ⟨1, ![n]⟩ .f32) :
    FVec Ideal ⟨2, ![M, n]⟩ .f32 :=
  maximumf (addf (Host.dotGeneral (DotDims.plain M k n) none X W)
      (broadcastInDim ⟨2, ![M, n]⟩ ![0, 1] g2 (broadcastInDim ⟨2, ![1, n]⟩ ![1] g1 b)))
    (broadcastInDim ⟨2, ![M, n]⟩ ![] g0 (constant (F := Ideal) ⟨0, ![]⟩ .f32 0x00000000#32))

/-- The host's layer at (a, q) is the rectified dense layer of row a at column q. -/
theorem hostDense_apply {M k n : ℕ} (g1 : (⟨1, ![n]⟩ : Shape).BroadcastsInDim ⟨2, ![1, n]⟩ ![1])
    (g2 : (⟨2, ![1, n]⟩ : Shape).BroadcastsInDim ⟨2, ![M, n]⟩ ![0, 1])
    (g0 : (⟨0, ![]⟩ : Shape).BroadcastsInDim ⟨2, ![M, n]⟩ ![])
    (X : FVec Ideal ⟨2, ![M, k]⟩ .f32) (W : FVec Ideal ⟨2, ![k, n]⟩ .f32) (b : FVec Ideal ⟨1, ![n]⟩ .f32)
    (a : Fin M) (q : Fin n) :
    hostDense g1 g2 g0 X W b (ix2 a q)
      = denseRelu (fun d => X (ix2 a d)) (fun d c => W (ix2 d c)) (fun c => b (ix1 c)) q := by
  unfold hostDense denseRelu
  rw [Cert.RowWise.hostBiasRelu_apply, hostDotGeneral_plain_apply]

/-! ## A block's way -/

/-- A block's rectified dense layer: both operands narrowed, the plain product into zero, the [1, n] bias row repeated
    down the block, the maximum with the zero splat. -/
def blockDense {m k n : ℕ} (ht : FTy.bf16.bits < FTy.f32.bits) (hb : (⟨2, ![1, n]⟩ : Shape).Broadcasts ⟨2, ![m, n]⟩)
    (X : FVec Ideal ⟨2, ![m, k]⟩ .f32) (W : FVec Ideal ⟨2, ![k, n]⟩ .f32) (r : FVec Ideal ⟨2, ![1, n]⟩ .f32) :
    FVec Ideal ⟨2, ![m, n]⟩ .f32 :=
  maximumf (addf (matmul (DotDims.plain m k n) none (truncf .bf16 X ht : FVec Ideal ⟨2, ![m, k]⟩ .bf16)
        (truncf .bf16 W ht : FVec Ideal ⟨2, ![k, n]⟩ .bf16) (constant ⟨2, ![m, n]⟩ .f32 0x00000000#32))
      (broadcastTo ⟨2, ![m, n]⟩ r hb))
    (broadcast ⟨2, ![m, n]⟩ (Scalar.ofBits .f32 0x00000000#32 : Ideal .f32))

/-- A block's layer at (p, q) is the rectified dense layer of the block's row p at column q. -/
theorem blockDense_apply {m k n : ℕ} (ht : FTy.bf16.bits < FTy.f32.bits) (hb : (⟨2, ![1, n]⟩ : Shape).Broadcasts ⟨2, ![m, n]⟩)
    (X : FVec Ideal ⟨2, ![m, k]⟩ .f32) (W : FVec Ideal ⟨2, ![k, n]⟩ .f32) (r : FVec Ideal ⟨2, ![1, n]⟩ .f32)
    (p : Fin m) (q : Fin n) :
    blockDense ht hb X W r (ix2 p q)
      = denseRelu (fun d => X (ix2 p d)) (fun d c => W (ix2 d c)) (fun c => r (ix2 (0 : Fin 1) c)) q := by
  unfold blockDense denseRelu
  show max (matmul (DotDims.plain m k n) none (truncf .bf16 X ht : FVec Ideal ⟨2, ![m, k]⟩ .bf16)
        (truncf .bf16 W ht : FVec Ideal ⟨2, ![k, n]⟩ .bf16) (constant ⟨2, ![m, n]⟩ .f32 0x00000000#32) (ix2 p q)
      + broadcastTo ⟨2, ![m, n]⟩ r hb (ix2 p q)) zero = _
  rw [matmul_plain_zero_apply, broadcastTo_1b_ab_apply]
  rfl

/-- A block's two layers. -/
def blockMlp {m k h n : ℕ} (ht : FTy.bf16.bits < FTy.f32.bits)
    (hb1 : (⟨2, ![1, h]⟩ : Shape).Broadcasts ⟨2, ![m, h]⟩) (hb2 : (⟨2, ![1, n]⟩ : Shape).Broadcasts ⟨2, ![m, n]⟩)
    (H : FVec Ideal ⟨2, ![m, k]⟩ .f32) (W1 : FVec Ideal ⟨2, ![k, h]⟩ .f32) (r1 : FVec Ideal ⟨2, ![1, h]⟩ .f32)
    (W2 : FVec Ideal ⟨2, ![h, n]⟩ .f32) (r2 : FVec Ideal ⟨2, ![1, n]⟩ .f32) : FVec Ideal ⟨2, ![m, n]⟩ .f32 :=
  blockDense ht hb2 (blockDense ht hb1 H W1 r1) W2 r2

/-! ## The array of rows -/

/-- Entry (r, q): the perceptron of row r of Z + A at column q, the biases given as [1, ·] rows. -/
def rowsMlpAt {M k h n : ℕ} (Z A : FVec Ideal ⟨2, ![M, k]⟩ .f32) (W1 : FVec Ideal ⟨2, ![k, h]⟩ .f32)
    (r1 : FVec Ideal ⟨2, ![1, h]⟩ .f32) (W2 : FVec Ideal ⟨2, ![h, n]⟩ .f32) (r2 : FVec Ideal ⟨2, ![1, n]⟩ .f32)
    (r : Fin M) (q : Fin n) : EReal :=
  mlpRow (fun d => Z (ix2 r d) + A (ix2 r d)) (fun d c => W1 (ix2 d c)) (fun c => r1 (ix2 (0 : Fin 1) c))
    (fun c q => W2 (ix2 c q)) (fun q => r2 (ix2 (0 : Fin 1) q)) q

/-- The array of those entries. -/
def rowsMlp {M k h n : ℕ} (Z A : FVec Ideal ⟨2, ![M, k]⟩ .f32) (W1 : FVec Ideal ⟨2, ![k, h]⟩ .f32)
    (r1 : FVec Ideal ⟨2, ![1, h]⟩ .f32) (W2 : FVec Ideal ⟨2, ![h, n]⟩ .f32) (r2 : FVec Ideal ⟨2, ![1, n]⟩ .f32) :
    FVec Ideal ⟨2, ![M, n]⟩ .f32 :=
  fun i => rowsMlpAt Z A W1 r1 W2 r2 (i 0) (i 1)

theorem rowsMlp_apply {M k h n : ℕ} (Z A : FVec Ideal ⟨2, ![M, k]⟩ .f32) (W1 : FVec Ideal ⟨2, ![k, h]⟩ .f32)
    (r1 : FVec Ideal ⟨2, ![1, h]⟩ .f32) (W2 : FVec Ideal ⟨2, ![h, n]⟩ .f32) (r2 : FVec Ideal ⟨2, ![1, n]⟩ .f32)
    (r : Fin M) (q : Fin n) : rowsMlp Z A W1 r1 W2 r2 (ix2 r q) = rowsMlpAt Z A W1 r1 W2 r2 r q := rfl

/-- A block whose row p is row ρ p of Z + A, with the same weights and bias rows, computes at (p, q) the entry (ρ p, q)
    of the array of rows. -/
theorem blockMlp_rows {M m k h n : ℕ} (ht : FTy.bf16.bits < FTy.f32.bits)
    (hb1 : (⟨2, ![1, h]⟩ : Shape).Broadcasts ⟨2, ![m, h]⟩) (hb2 : (⟨2, ![1, n]⟩ : Shape).Broadcasts ⟨2, ![m, n]⟩)
    (Z A : FVec Ideal ⟨2, ![M, k]⟩ .f32) (H : FVec Ideal ⟨2, ![m, k]⟩ .f32)
    (W1 W1b : FVec Ideal ⟨2, ![k, h]⟩ .f32) (r1 r1b : FVec Ideal ⟨2, ![1, h]⟩ .f32)
    (W2 W2b : FVec Ideal ⟨2, ![h, n]⟩ .f32) (r2 r2b : FVec Ideal ⟨2, ![1, n]⟩ .f32) (ρ : Fin m → Fin M)
    (hH : ∀ (p : Fin m) (d : Fin k), H (ix2 p d) = Z (ix2 (ρ p) d) + A (ix2 (ρ p) d))
    (hW1 : ∀ (d : Fin k) (c : Fin h), W1b (ix2 d c) = W1 (ix2 d c))
    (hr1 : ∀ c : Fin h, r1b (ix2 (0 : Fin 1) c) = r1 (ix2 (0 : Fin 1) c))
    (hW2 : ∀ (c : Fin h) (q : Fin n), W2b (ix2 c q) = W2 (ix2 c q))
    (hr2 : ∀ q : Fin n, r2b (ix2 (0 : Fin 1) q) = r2 (ix2 (0 : Fin 1) q))
    (p : Fin m) (q : Fin n) :
    blockMlp ht hb1 hb2 H W1b r1b W2b r2b (ix2 p q) = rowsMlp Z A W1 r1 W2 r2 (ix2 (ρ p) q) := by
  rw [rowsMlp_apply]
  unfold blockMlp rowsMlpAt mlpRow
  rw [blockDense_apply]
  have e1 : (fun d => blockDense ht hb1 H W1b r1b (ix2 p d))
      = denseRelu (fun d => Z (ix2 (ρ p) d) + A (ix2 (ρ p) d)) (fun d c => W1 (ix2 d c)) (fun c => r1 (ix2 (0 : Fin 1) c)) := by
    funext c
    rw [blockDense_apply]
    unfold denseRelu
    simp only [hH, hW1, hr1]
  rw [e1]
  unfold denseRelu
  simp only [hW2, hr2]

/-- With the biases of a host program laid out as [1, ·] rows, the array of rows is the host's two layers on Z + A. -/
theorem rowsMlp_eq_host {M k h n : ℕ}
    (g1 : (⟨1, ![h]⟩ : Shape).BroadcastsInDim ⟨2, ![1, h]⟩ ![1])
    (g2 : (⟨2, ![1, h]⟩ : Shape).BroadcastsInDim ⟨2, ![M, h]⟩ ![0, 1])
    (g0 : (⟨0, ![]⟩ : Shape).BroadcastsInDim ⟨2, ![M, h]⟩ ![])
    (g1' : (⟨1, ![n]⟩ : Shape).BroadcastsInDim ⟨2, ![1, n]⟩ ![1])
    (g2' : (⟨2, ![1, n]⟩ : Shape).BroadcastsInDim ⟨2, ![M, n]⟩ ![0, 1])
    (g0' : (⟨0, ![]⟩ : Shape).BroadcastsInDim ⟨2, ![M, n]⟩ ![])
    (hs1 : (⟨1, ![h]⟩ : Shape).ShapeCasts ⟨2, ![1, h]⟩) (hs2 : (⟨1, ![n]⟩ : Shape).ShapeCasts ⟨2, ![1, n]⟩)
    (Z A : FVec Ideal ⟨2, ![M, k]⟩ .f32) (W1 : FVec Ideal ⟨2, ![k, h]⟩ .f32) (b1 : FVec Ideal ⟨1, ![h]⟩ .f32)
    (W2 : FVec Ideal ⟨2, ![h, n]⟩ .f32) (b2 : FVec Ideal ⟨1, ![n]⟩ .f32) :
    rowsMlp Z A W1 (shapeCast ⟨2, ![1, h]⟩ b1 hs1) W2 (shapeCast ⟨2, ![1, n]⟩ b2 hs2)
      = hostDense g1' g2' g0' (hostDense g1 g2 g0 (addf Z A) W1 b1) W2 b2 := by
  funext i
  obtain ⟨r, q, rfl⟩ : ∃ (r : Fin M) (q : Fin n), i = ix2 r q := ⟨i 0, i 1, eq_ix2 i⟩
  rw [rowsMlp_apply, hostDense_apply]
  unfold rowsMlpAt mlpRow
  have e1 : (fun d => hostDense g1 g2 g0 (addf Z A) W1 b1 (ix2 r d))
      = denseRelu (fun d => Z (ix2 r d) + A (ix2 r d)) (fun d c => W1 (ix2 d c))
          (fun c => shapeCast ⟨2, ![1, h]⟩ b1 hs1 (ix2 (0 : Fin 1) c)) := by
    funext c
    rw [hostDense_apply]
    unfold denseRelu
    simp only [addf_apply, shapeCast_a_1a_apply]
  rw [e1]
  unfold denseRelu
  simp only [shapeCast_a_1a_apply]

end Cert.Perceptron

end
-- ==== Proof.RefLayers.lean ====
/-
  The reference network as three applications of one layer.

  One layer takes the node features z (one row of 128 numbers per node), the edge list (a source and a destination node
  per edge) and two weight matrices with their biases. It sums into every node the rows of the sources of its incoming
  edges (aggregate: the host's gather of the source rows followed by its accumulating scatter at the destinations, from
  the zero array; a negative source index is first wrapped by the node count, as the host program does), adds the node's
  own row, and sends the sum through the two rectified dense layers. The reference program's result is this layer
  applied three times, each time to the previous result and with its own weights: its generated run states the result as
  one composed term, and unfolding the definitions here gives that term back, symbol for symbol.
-/
import proofs.«138859_j47330539602050_1_alg».proof.Proof.Gen.ReferenceIdeal.Run
import proofs.«138859_j47330539602050_1_alg».proof.Proof.LibPerceptron

noncomputable section

namespace Cert.RefLayers

open Cert.ReferenceIdeal Cert.ReferenceIdeal.Gen Idealize.ShloMosaic Idealize.ShloMosaic.TcCoe Idealize.SL.Sem
open Cert.Perceptron

/-- The source node of every edge: row 0 of the [2, E] edge table, as a vector. -/
def srcOf (e : IVec S2x640000 32) : IVec S640000 32 :=
  shapeCast S640000 (extractStridedSlice S1x640000 ![0, 0] e slices_S2x640000_S1x640000_0_0) shapeCasts_S1x640000_S640000

/-- The destination node of every edge: row 1 of the edge table, as a vector. -/
def dstOf (e : IVec S2x640000 32) : IVec S640000 32 :=
  shapeCast S640000 (extractStridedSlice S1x640000 ![1, 0] e slices_S2x640000_S1x640000_1_0) shapeCasts_S1x640000_S640000

/-- Into every node, the sum of the rows of z at the sources of its incoming edges. -/
def aggregate (s d : IVec S640000 32) (z : FVec Ideal S20000x128 .f32) : FVec Ideal S20000x128 .f32 :=
  Host.scatterAdd scatter_S20000x128_S640000x1_S640000x128_1_0_0_1
    (broadcastInDim S20000x128 ![] bcast_S_S20000x128 (constant (F := Ideal) S_ .f32 0x00000000#32))
    (broadcastInDim S640000x1 ![0] bcast_S640000_S640000x1_0 d)
    (Host.gather gather_S20000x128_S640000x1_S640000x128_1_0_n_n_0_1_1128 z
      (broadcastInDim S640000x1 ![0] bcast_S640000_S640000x1_0
        (select (cmpi .slt s (broadcastInDim S640000 ![] bcast_S_S640000 (constantI S_ 32 0#32)))
          (addi s (broadcastInDim S640000 ![] bcast_S_S640000 (constantI S_ 32 20000#32))) s)))

/-- One layer: the two rectified dense layers of z plus its aggregate. -/
def layer (s d : IVec S640000 32) (z : FVec Ideal S20000x128 .f32) (W1 : FVec Ideal S128x128 .f32) (b1 : FVec Ideal S128 .f32)
    (W2 : FVec Ideal S128x128 .f32) (b2 : FVec Ideal S128 .f32) : FVec Ideal S20000x128 .f32 :=
  hostDense bcast_S128_S1x128_1 bcast_S1x128_S20000x128_0_1 bcast_S_S20000x128
    (hostDense bcast_S128_S1x128_1 bcast_S1x128_S20000x128_0_1 bcast_S_S20000x128 (addf z (aggregate s d z)) W1 b1) W2 b2

/-- The network: three layers over one edge list. -/
def net (e : IVec S2x640000 32) (x : FVec Ideal S20000x128 .f32)
    (w10 : FVec Ideal S128x128 .f32) (b10 : FVec Ideal S128 .f32) (w20 : FVec Ideal S128x128 .f32) (b20 : FVec Ideal S128 .f32)
    (w11 : FVec Ideal S128x128 .f32) (b11 : FVec Ideal S128 .f32) (w21 : FVec Ideal S128x128 .f32) (b21 : FVec Ideal S128 .f32)
    (w12 : FVec Ideal S128x128 .f32) (b12 : FVec Ideal S128 .f32) (w22 : FVec Ideal S128x128 .f32) (b22 : FVec Ideal S128 .f32) :
    FVec Ideal S20000x128 .f32 :=
  layer (srcOf e) (dstOf e)
    (layer (srcOf e) (dstOf e) (layer (srcOf e) (dstOf e) x w10 b10 w20 b20) w11 b11 w21 b21) w12 b12 w22 b22

/-- The reference's result, as its generated run states it, is the network of its arguments. -/
theorem result_eq_net (m : (ℓ : Loc nD τ sig) → Buf (Elt Ideal) ℓ) (c : Dev nD) :
    Cert.ReferenceIdeal.Value.res_main_v66 (F := Ideal) m c
      = net (m ((c.tc : Thread nD τ).loc main_arg1)) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) := by
  unfold Cert.ReferenceIdeal.Value.res_main_v66 net layer aggregate srcOf dstOf hostDense
  rfl

end Cert.RefLayers

end
-- ==== Proof.KernelRun.lean ====
/-
  The run of the kernel program with its result named.

  @main is six segments: a stretch of host operations, a pallas_call, twice more. The segments, each region's proof
  data and the buffer contents at every boundary are the generated frame's; the launch theorem for a list of segments
  gives, from any memory with zero counters, that every weakly fair execution terminates with every unscoped
  TensorCore buffer at the last boundary's contents. Read at the result buffer that is the statement the value claim
  needs; read at the fourteen arguments it is the frame.
-/
import proofs.«138859_j47330539602050_1_alg».proof.Proof.Gen.KernelIdeal.Frame
import Idealize.ShloMosaic.PureOps.Ideal

noncomputable section

namespace Cert.KernelIdeal.Layers

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- Every weakly fair execution of @main terminates with every unscoped TensorCore buffer at the contents of the last
    segment boundary. -/
theorem run_all : θ_run defs (onTc (τ := τ) (main (F := Ideal))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run read at the result buffer and at the arguments: the result at the last boundary's contents of its buffer,
    the arguments as launched. -/
theorem run_result : θ_run defs (onTc (τ := τ) (main (F := Ideal))) ⟨m, fun _ => 0, ρ⟩ (fun r => ∀ c : Dev nD,
      r.2.mem ((c.tc : Thread nD τ).loc main_v42) = W6 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨h c _ (mem_uc main_v42 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c),
     (h c _ (mem_uc main_arg11 (by decide))).trans (W6_main_arg11 m ρ c),
     (h c _ (mem_uc main_arg12 (by decide))).trans (W6_main_arg12 m ρ c),
     (h c _ (mem_uc main_arg13 (by decide))).trans (W6_main_arg13 m ρ c)⟩)
    (run_all m ρ)

end Cert.KernelIdeal.Layers

end
-- ==== Proof.Region0.lean ====
/-
  Region 0 of the kernel program: what its pallas_call leaves in its output array, as one function of the six arrays
  it reads, whatever those arrays hold when the region is entered.

  The grid has ten points. Point t reads rows 2000·t … 2000·t + 1999 of the node features and of their aggregate, the
  two whole weight matrices and the two bias rows, computes the perceptron of each of its rows, and writes the result
  back as rows 2000·t … 2000·t + 1999 of the output. A row's result depends on that row alone, so block t of the output
  is block t of the array of rows (rowsMlp), and the ten blocks tile the 20000 rows: the output array IS the array of
  rows of the six inputs.
-/
import proofs.«138859_j47330539602050_1_alg».proof.Proof.Gen.KernelIdeal.Frame
import proofs.«138859_j47330539602050_1_alg».proof.Proof.LibPerceptron
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx Cert.Perceptron
open Idealize.ShloMosaic.Pipeline (Dat)

-- the contents of the TensorCore's buffers when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the block form of the perceptron of the sum of its first two blocks (the identity casts the
    body passes its blocks through change nothing). -/
theorem pay_eq (v0 v1 : Vec Ideal S2000x128 .f32) (v5 : Vec Ideal S128x128 .f32) (v8 : Vec Ideal S1x128 .f32)
    (v15 : Vec Ideal S128x128 .f32) (v18 : Vec Ideal S1x128 .f32) :
    k0_pay1 (F := Ideal) v0 v1 v5 v8 v15 v18
      = blockMlp bitsLt_bf16_f32 broadcasts_S1x128_S2000x128 broadcasts_S1x128_S2000x128 (addf v0 v1) v5 v8 v15 v18 := by
  unfold k0_pay1
  simp only [shapeCast_self]
  rfl

/-- The printed index maps, decided over the grid: the row windows (the two inputs and the output) are at block (t, 0), -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0 :=
  (by decide +kernel : ∀ t : Fin grid0.N, _)

/-- and the weights and bias rows are at block (0, 0) at every point. -/
theorem idx_fixed : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-! ## Each input block, read where it sits in its array -/

/-- Row p of point t's block of the node features is row 2000·t + p of the array. -/
theorem feat_read (c : Dev nD) (t : Fin cfg0.N) (p : Fin 2000) (d : Fin 128) (r : Fin 20000) (hr : r.val = 2000 * t.val + p.val) :
    (iblk0 V c 0 t : Vec Ideal S2000x128 .f32) (ix2 p d) = (V c main_arg0 : S20000x128.Idx → EReal) (ix2 r d) := by
  obtain ⟨e0, e1, -⟩ := idx_rows t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * d.val = d.val; rw [e1]; omega

/-- Row p of point t's block of the aggregate is row 2000·t + p of the array. -/
theorem agg_read (c : Dev nD) (t : Fin cfg0.N) (p : Fin 2000) (d : Fin 128) (r : Fin 20000) (hr : r.val = 2000 * t.val + p.val) :
    (iblk0 V c 1 t : Vec Ideal S2000x128 .f32) (ix2 p d) = (V c main_v13 : S20000x128.Idx → EReal) (ix2 r d) := by
  obtain ⟨-, -, e0, e1, -⟩ := idx_rows t
  unfold iblk0
  rw [View.read_apply]
  show V c main_v13 _ = V c main_v13 _
  refine congrArg (V c main_v13) (funext fun a => Fin.ext ?_)
  match a with
  | ⟨0, _⟩ => show win0_1.index t (0 : Fin 2) * 2000 + 1 * p.val = r.val; rw [e0, hr]; omega
  | ⟨1, _⟩ => show win0_1.index t (1 : Fin 2) * 128 + 1 * d.val = d.val; rw [e1]; omega

/-- The first weight matrix's one block is the matrix. -/
theorem w1_read (c : Dev nD) (t : Fin cfg0.N) (a b : Fin 128) :
    (iblk0 V c 2 t : Vec Ideal S128x128 .f32) (ix2 a b) = (V c main_arg2 : S128x128.Idx → EReal) (ix2 a b) := by
  obtain ⟨e0, e1, -⟩ := idx_fixed t
  unfold iblk0
  rw [View.read_apply]
  show V c main_arg2 _ = V c main_arg2 _
  refine congrArg (V c main_arg2) (funext fun x => Fin.ext ?_)
  match x with
  | ⟨0, _⟩ => show win0_2.index t (0 : Fin 2) * 128 + 1 * a.val = a.val; rw [e0]; omega
  | ⟨1, _⟩ => show win0_2.index t (1 : Fin 2) * 128 + 1 * b.val = b.val; rw [e1]; omega

/-- The first bias row's one block is the row. -/
theorem r1_read (c : Dev nD) (t : Fin cfg0.N) (b : Fin 128) :
    (iblk0 V c 3 t : Vec Ideal S1x128 .f32) (ix2 (0 : Fin 1) b) = (V c main_v14 : S1x128.Idx → EReal) (ix2 (0 : Fin 1) b) := by
  obtain ⟨-, -, e0, e1, -⟩ := idx_fixed t
  unfold iblk0
  rw [View.read_apply]
  show V c main_v14 _ = V c main_v14 _
  refine congrArg (V c main_v14) (funext fun x => Fin.ext ?_)
  match x with
  | ⟨0, _⟩ => show win0_3.index t (0 : Fin 2) * 1 + 1 * 0 = 0; rw [e0]
  | ⟨1, _⟩ => show win0_3.index t (1 : Fin 2) * 128 + 1 * b.val = b.val; rw [e1]; omega

/-- The second weight matrix's one block is the matrix. -/
theorem w2_read (c : Dev nD) (t : Fin cfg0.N) (a b : Fin 128) :
    (iblk0 V c 4 t : Vec Ideal S128x128 .f32) (ix2 a b) = (V c main_arg4 : S128x128.Idx → EReal) (ix2 a b) := by
  obtain ⟨-, -, -, -, e0, e1, -⟩ := idx_fixed t
  unfold iblk0
  rw [View.read_apply]
  show V c main_arg4 _ = V c main_arg4 _
  refine congrArg (V c main_arg4) (funext fun x => Fin.ext ?_)
  match x with
  | ⟨0, _⟩ => show win0_4.index t (0 : Fin 2) * 128 + 1 * a.val = a.val; rw [e0]; omega
  | ⟨1, _⟩ => show win0_4.index t (1 : Fin 2) * 128 + 1 * b.val = b.val; rw [e1]; omega

/-- The second bias row's one block is the row. -/
theorem r2_read (c : Dev nD) (t : Fin cfg0.N) (b : Fin 128) :
    (iblk0 V c 5 t : Vec Ideal S1x128 .f32) (ix2 (0 : Fin 1) b) = (V c main_v15 : S1x128.Idx → EReal) (ix2 (0 : Fin 1) b) := by
  obtain ⟨-, -, -, -, -, -, e0, e1⟩ := idx_fixed t
  unfold iblk0
  rw [View.read_apply]
  show V c main_v15 _ = V c main_v15 _
  refine congrArg (V c main_v15) (funext fun x => Fin.ext ?_)
  match x with
  | ⟨0, _⟩ => show win0_5.index t (0 : Fin 2) * 1 + 1 * 0 = 0; rw [e0]
  | ⟨1, _⟩ => show win0_5.index t (1 : Fin 2) * 128 + 1 * b.val = b.val; rw [e1]; omega

/-! ## The output array -/

/-- The array of rows of the region's six inputs as it finds them. -/
abbrev rowsOut (c : Dev nD) : FVec Ideal S20000x128 .f32 :=
  rowsMlp (V c main_arg0 : FVec Ideal S20000x128 .f32) (V c main_v13 : FVec Ideal S20000x128 .f32)
    (V c main_arg2 : FVec Ideal S128x128 .f32) (V c main_v14 : FVec Ideal S1x128 .f32)
    (V c main_arg4 : FVec Ideal S128x128 .f32) (V c main_v15 : FVec Ideal S1x128 .f32)

/-- The row of the array that row p of point t's blocks is. -/
def rowAt (t : Fin cfg0.N) (p : Fin 2000) : Fin 20000 :=
  ⟨2000 * t.val + p.val, by have h : t.val < grid0.N := t.isLt; rw [N_0] at h; have := p.isLt; omega⟩

/-- What point t writes back is block t of the array of rows. -/
theorem flushed_eq (c : Dev nD) (t : Fin cfg0.N) :
    (dat0 V c).flushed 6 t = ((cfg0.win 6).blk t).view.read (Elt Ideal) (rowsOut V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S1x128) hz]
  rw [pay_eq]
  funext j
  obtain ⟨p, q, rfl⟩ : ∃ (p : Fin 2000) (q : Fin 128), j = ix2 p q := ⟨j 0, j 1, eq_ix2 (n0 := 2000) (n1 := 128) j⟩
  rw [View.read_apply]
  obtain ⟨-, -, -, -, e0, e1⟩ := idx_rows t
  have hemb : ((cfg0.win 6).blk t).view.emb (ix2 p q) = (ix2 (rowAt t p) q : S20000x128.Idx) := by
    funext a; apply Fin.ext
    match a with
    | ⟨0, _⟩ => show win0_6.index t (0 : Fin 2) * 2000 + 1 * p.val = 2000 * t.val + p.val; rw [e0]; omega
    | ⟨1, _⟩ => show win0_6.index t (1 : Fin 2) * 128 + 1 * q.val = q.val; rw [e1]; omega
  rw [hemb]
  exact blockMlp_rows bitsLt_bf16_f32 broadcasts_S1x128_S2000x128 broadcasts_S1x128_S2000x128
    (V c main_arg0 : FVec Ideal S20000x128 .f32) (V c main_v13 : FVec Ideal S20000x128 .f32)
    (addf (iblk0 V c 0 t : Vec Ideal S2000x128 .f32) (iblk0 V c 1 t : Vec Ideal S2000x128 .f32))
    (V c main_arg2 : FVec Ideal S128x128 .f32) (iblk0 V c 2 t : Vec Ideal S128x128 .f32)
    (V c main_v14 : FVec Ideal S1x128 .f32) (iblk0 V c 3 t : Vec Ideal S1x128 .f32)
    (V c main_arg4 : FVec Ideal S128x128 .f32) (iblk0 V c 4 t : Vec Ideal S128x128 .f32)
    (V c main_v15 : FVec Ideal S1x128 .f32) (iblk0 V c 5 t : Vec Ideal S1x128 .f32)
    (rowAt t)
    (fun p d => congrArg₂ (· + ·) (feat_read V c t p d (rowAt t p) rfl) (agg_read V c t p d (rowAt t p) rfl))
    (fun a b => w1_read V c t a b) (fun b => r1_read V c t b)
    (fun a b => w2_read V c t a b) (fun b => r2_read V c t b) p q

/-- An index of the output array is in point t's block iff each coordinate is in the block's range on its axis. -/
theorem mem_blk (t : Fin cfg0.N) (i : S20000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v16).slice (win0_6.rect t)).set ↔ _
  rw [View.set_slice_whole, Rect.mem_set_unit]
  exact Iff.rfl

/-- Every row is in the block of the point that is its quotient by 2000. -/
theorem cover (i : S20000x128.Idx) :
    ∃ t : Fin cfg0.N, (cfg0.win 6).flush t = true ∧ i ∈ ((cfg0.win 6).blk t).view.set := by
  have hi0 : (i 0).val < 20000 := (i 0).isLt
  have hi1 : (i 1).val < 128 := (i 1).isLt
  have hN : grid0.N = 10 := N_0
  have ht : (i 0).val / 2000 < grid0.N := by rw [hN]; omega
  obtain ⟨-, -, -, -, e0, e1⟩ := idx_rows ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ (1 : Fin 2) * 128 ≤ (i 1).val
      ∧ (i 1).val < win0_6.index ⟨(i 0).val / 2000, ht⟩ (1 : Fin 2) * 128 + 128
    rw [e1]; omega

/-- The region leaves its output array at the array of rows of its six inputs. -/
theorem final (c : Dev nD) : (dat0 V c).arrAt 6 cfg0.N = rowsOut V c :=
  (dat0 V c).arrAt_eq_of_cover 6 (rowsOut V c) (fun t _ => flushed_eq V c t) cover

end Cert.KernelIdeal.Region0

end
-- ==== Proof.Region1.lean ====
/-
  Region 1 of the kernel program: what its pallas_call leaves in its output array, as one function of the six arrays
  it reads, whatever those arrays hold when the region is entered.

  The grid has ten points. Point t reads rows 2000·t … 2000·t + 1999 of the node features and of their aggregate, the
  two whole weight matrices and the two bias rows, computes the perceptron of each of its rows, and writes the result
  back as rows 2000·t … 2000·t + 1999 of the output. A row's result depends on that row alone, so block t of the output
  is block t of the array of rows (rowsMlp), and the ten blocks tile the 20000 rows: the output array IS the array of
  rows of the six inputs.
-/
import proofs.«138859_j47330539602050_1_alg».proof.Proof.Gen.KernelIdeal.Frame
import proofs.«138859_j47330539602050_1_alg».proof.Proof.LibPerceptron
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx Cert.Perceptron
open Idealize.ShloMosaic.Pipeline (Dat)

-- the contents of the TensorCore's buffers when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the block form of the perceptron of the sum of its first two blocks (the identity casts the
    body passes its blocks through change nothing). -/
theorem pay_eq (v0 v1 : Vec Ideal S2000x128 .f32) (v5 : Vec Ideal S128x128 .f32) (v8 : Vec Ideal S1x128 .f32)
    (v15 : Vec Ideal S128x128 .f32) (v18 : Vec Ideal S1x128 .f32) :
    k1_pay1 (F := Ideal) v0 v1 v5 v8 v15 v18
      = blockMlp bitsLt_bf16_f32 broadcasts_S1x128_S2000x128 broadcasts_S1x128_S2000x128 (addf v0 v1) v5 v8 v15 v18 := by
  unfold k1_pay1
  simp only [shapeCast_self]
  rfl

/-- The printed index maps, decided over the grid: the row windows (the two inputs and the output) are at block (t, 0), -/
theorem idx_rows : ∀ t : Fin cfg1.N, win1_0.index t (0 : Fin 2) = t.val ∧ win1_0.index t (1 : Fin 2) = 0
    ∧ win1_1.index t (0 : Fin 2) = t.val ∧ win1_1.index t (1 : Fin 2) = 0
    ∧ win1_6.index t (0 : Fin 2) = t.val ∧ win1_6.index t (1 : Fin 2) = 0 :=
  (by decide +kernel : ∀ t : Fin grid1.N, _)

/-- and the weights and bias rows are at block (0, 0) at every point. -/
theorem idx_fixed : ∀ t : Fin cfg1.N, win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-! ## Each input block, read where it sits in its array -/

/-- Row p of point t's block of the node features is row 2000·t + p of the array. -/
theorem feat_read (c : Dev nD) (t : Fin cfg1.N) (p : Fin 2000) (d : Fin 128) (r : Fin 20000) (hr : r.val = 2000 * t.val + p.val) :
    (iblk1 V c 0 t : Vec Ideal S2000x128 .f32) (ix2 p d) = (V c main_v16 : S20000x128.Idx → EReal) (ix2 r d) := by
  obtain ⟨e0, e1, -⟩ := idx_rows t
  unfold iblk1
  rw [View.read_apply]
  show V c main_v16 _ = V c main_v16 _
  refine congrArg (V c main_v16) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * d.val = d.val; rw [e1]; omega

/-- Row p of point t's block of the aggregate is row 2000·t + p of the array. -/
theorem agg_read (c : Dev nD) (t : Fin cfg1.N) (p : Fin 2000) (d : Fin 128) (r : Fin 20000) (hr : r.val = 2000 * t.val + p.val) :
    (iblk1 V c 1 t : Vec Ideal S2000x128 .f32) (ix2 p d) = (V c main_v26 : S20000x128.Idx → EReal) (ix2 r d) := by
  obtain ⟨-, -, e0, e1, -⟩ := idx_rows t
  unfold iblk1
  rw [View.read_apply]
  show V c main_v26 _ = V c main_v26 _
  refine congrArg (V c main_v26) (funext fun a => Fin.ext ?_)
  match a with
  | ⟨0, _⟩ => show win1_1.index t (0 : Fin 2) * 2000 + 1 * p.val = r.val; rw [e0, hr]; omega
  | ⟨1, _⟩ => show win1_1.index t (1 : Fin 2) * 128 + 1 * d.val = d.val; rw [e1]; omega

/-- The first weight matrix's one block is the matrix. -/
theorem w1_read (c : Dev nD) (t : Fin cfg1.N) (a b : Fin 128) :
    (iblk1 V c 2 t : Vec Ideal S128x128 .f32) (ix2 a b) = (V c main_arg6 : S128x128.Idx → EReal) (ix2 a b) := by
  obtain ⟨e0, e1, -⟩ := idx_fixed t
  unfold iblk1
  rw [View.read_apply]
  show V c main_arg6 _ = V c main_arg6 _
  refine congrArg (V c main_arg6) (funext fun x => Fin.ext ?_)
  match x with
  | ⟨0, _⟩ => show win1_2.index t (0 : Fin 2) * 128 + 1 * a.val = a.val; rw [e0]; omega
  | ⟨1, _⟩ => show win1_2.index t (1 : Fin 2) * 128 + 1 * b.val = b.val; rw [e1]; omega

/-- The first bias row's one block is the row. -/
theorem r1_read (c : Dev nD) (t : Fin cfg1.N) (b : Fin 128) :
    (iblk1 V c 3 t : Vec Ideal S1x128 .f32) (ix2 (0 : Fin 1) b) = (V c main_v27 : S1x128.Idx → EReal) (ix2 (0 : Fin 1) b) := by
  obtain ⟨-, -, e0, e1, -⟩ := idx_fixed t
  unfold iblk1
  rw [View.read_apply]
  show V c main_v27 _ = V c main_v27 _
  refine congrArg (V c main_v27) (funext fun x => Fin.ext ?_)
  match x with
  | ⟨0, _⟩ => show win1_3.index t (0 : Fin 2) * 1 + 1 * 0 = 0; rw [e0]
  | ⟨1, _⟩ => show win1_3.index t (1 : Fin 2) * 128 + 1 * b.val = b.val; rw [e1]; omega

/-- The second weight matrix's one block is the matrix. -/
theorem w2_read (c : Dev nD) (t : Fin cfg1.N) (a b : Fin 128) :
    (iblk1 V c 4 t : Vec Ideal S128x128 .f32) (ix2 a b) = (V c main_arg8 : S128x128.Idx → EReal) (ix2 a b) := by
  obtain ⟨-, -, -, -, e0, e1, -⟩ := idx_fixed t
  unfold iblk1
  rw [View.read_apply]
  show V c main_arg8 _ = V c main_arg8 _
  refine congrArg (V c main_arg8) (funext fun x => Fin.ext ?_)
  match x with
  | ⟨0, _⟩ => show win1_4.index t (0 : Fin 2) * 128 + 1 * a.val = a.val; rw [e0]; omega
  | ⟨1, _⟩ => show win1_4.index t (1 : Fin 2) * 128 + 1 * b.val = b.val; rw [e1]; omega

/-- The second bias row's one block is the row. -/
theorem r2_read (c : Dev nD) (t : Fin cfg1.N) (b : Fin 128) :
    (iblk1 V c 5 t : Vec Ideal S1x128 .f32) (ix2 (0 : Fin 1) b) = (V c main_v28 : S1x128.Idx → EReal) (ix2 (0 : Fin 1) b) := by
  obtain ⟨-, -, -, -, -, -, e0, e1⟩ := idx_fixed t
  unfold iblk1
  rw [View.read_apply]
  show V c main_v28 _ = V c main_v28 _
  refine congrArg (V c main_v28) (funext fun x => Fin.ext ?_)
  match x with
  | ⟨0, _⟩ => show win1_5.index t (0 : Fin 2) * 1 + 1 * 0 = 0; rw [e0]
  | ⟨1, _⟩ => show win1_5.index t (1 : Fin 2) * 128 + 1 * b.val = b.val; rw [e1]; omega

/-! ## The output array -/

/-- The array of rows of the region's six inputs as it finds them. -/
abbrev rowsOut (c : Dev nD) : FVec Ideal S20000x128 .f32 :=
  rowsMlp (V c main_v16 : FVec Ideal S20000x128 .f32) (V c main_v26 : FVec Ideal S20000x128 .f32)
    (V c main_arg6 : FVec Ideal S128x128 .f32) (V c main_v27 : FVec Ideal S1x128 .f32)
    (V c main_arg8 : FVec Ideal S128x128 .f32) (V c main_v28 : FVec Ideal S1x128 .f32)

/-- The row of the array that row p of point t's blocks is. -/
def rowAt (t : Fin cfg1.N) (p : Fin 2000) : Fin 20000 :=
  ⟨2000 * t.val + p.val, by have h : t.val < grid1.N := t.isLt; rw [N_1] at h; have := p.isLt; omega⟩

/-- What point t writes back is block t of the array of rows. -/
theorem flushed_eq (c : Dev nD) (t : Fin cfg1.N) :
    (dat1 V c).flushed 6 t = ((cfg1.win 6).blk t).view.read (Elt Ideal) (rowsOut V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S1x128) hz]
  rw [pay_eq]
  funext j
  obtain ⟨p, q, rfl⟩ : ∃ (p : Fin 2000) (q : Fin 128), j = ix2 p q := ⟨j 0, j 1, eq_ix2 (n0 := 2000) (n1 := 128) j⟩
  rw [View.read_apply]
  obtain ⟨-, -, -, -, e0, e1⟩ := idx_rows t
  have hemb : ((cfg1.win 6).blk t).view.emb (ix2 p q) = (ix2 (rowAt t p) q : S20000x128.Idx) := by
    funext a; apply Fin.ext
    match a with
    | ⟨0, _⟩ => show win1_6.index t (0 : Fin 2) * 2000 + 1 * p.val = 2000 * t.val + p.val; rw [e0]; omega
    | ⟨1, _⟩ => show win1_6.index t (1 : Fin 2) * 128 + 1 * q.val = q.val; rw [e1]; omega
  rw [hemb]
  exact blockMlp_rows bitsLt_bf16_f32 broadcasts_S1x128_S2000x128 broadcasts_S1x128_S2000x128
    (V c main_v16 : FVec Ideal S20000x128 .f32) (V c main_v26 : FVec Ideal S20000x128 .f32)
    (addf (iblk1 V c 0 t : Vec Ideal S2000x128 .f32) (iblk1 V c 1 t : Vec Ideal S2000x128 .f32))
    (V c main_arg6 : FVec Ideal S128x128 .f32) (iblk1 V c 2 t : Vec Ideal S128x128 .f32)
    (V c main_v27 : FVec Ideal S1x128 .f32) (iblk1 V c 3 t : Vec Ideal S1x128 .f32)
    (V c main_arg8 : FVec Ideal S128x128 .f32) (iblk1 V c 4 t : Vec Ideal S128x128 .f32)
    (V c main_v28 : FVec Ideal S1x128 .f32) (iblk1 V c 5 t : Vec Ideal S1x128 .f32)
    (rowAt t)
    (fun p d => congrArg₂ (· + ·) (feat_read V c t p d (rowAt t p) rfl) (agg_read V c t p d (rowAt t p) rfl))
    (fun a b => w1_read V c t a b) (fun b => r1_read V c t b)
    (fun a b => w2_read V c t a b) (fun b => r2_read V c t b) p q

/-- An index of the output array is in point t's block iff each coordinate is in the block's range on its axis. -/
theorem mem_blk (t : Fin cfg1.N) (i : S20000x128.Idx) :
    i ∈ ((cfg1.win 6).blk t).view.set ↔ ∀ a : Fin 2, win1_6.index t a * S2000x128.size a ≤ (i a).val
      ∧ (i a).val < win1_6.index t a * S2000x128.size a + S2000x128.size a := by
  show i ∈ ((View.whole main_v29).slice (win1_6.rect t)).set ↔ _
  rw [View.set_slice_whole, Rect.mem_set_unit]
  exact Iff.rfl

/-- Every row is in the block of the point that is its quotient by 2000. -/
theorem cover (i : S20000x128.Idx) :
    ∃ t : Fin cfg1.N, (cfg1.win 6).flush t = true ∧ i ∈ ((cfg1.win 6).blk t).view.set := by
  have hi0 : (i 0).val < 20000 := (i 0).isLt
  have hi1 : (i 1).val < 128 := (i 1).isLt
  have hN : grid1.N = 10 := N_1
  have ht : (i 0).val / 2000 < grid1.N := by rw [hN]; omega
  obtain ⟨-, -, -, -, e0, e1⟩ := idx_rows ⟨(i 0).val / 2000, ht⟩
  refine ⟨⟨(i 0).val / 2000, ht⟩, flush1_6 _, ?_⟩
  rw [mem_blk]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val
      ∧ (i 1).val < win1_6.index ⟨(i 0).val / 2000, ht⟩ (1 : Fin 2) * 128 + 128
    rw [e1]; omega

/-- The region leaves its output array at the array of rows of its six inputs. -/
theorem final (c : Dev nD) : (dat1 V c).arrAt 6 cfg1.N = rowsOut V c :=
  (dat1 V c).arrAt_eq_of_cover 6 (rowsOut V c) (fun t _ => flushed_eq V c t) cover

end Cert.KernelIdeal.Region1

end
-- ==== Proof.Region2.lean ====
/-
  Region 2 of the kernel program: what its pallas_call leaves in its output array, as one function of the six arrays
  it reads, whatever those arrays hold when the region is entered.

  The grid has ten points. Point t reads rows 2000·t … 2000·t + 1999 of the node features and of their aggregate, the
  two whole weight matrices and the two bias rows, computes the perceptron of each of its rows, and writes the result
  back as rows 2000·t … 2000·t + 1999 of the output. A row's result depends on that row alone, so block t of the output
  is block t of the array of rows (rowsMlp), and the ten blocks tile the 20000 rows: the output array IS the array of
  rows of the six inputs.
-/
import proofs.«138859_j47330539602050_1_alg».proof.Proof.Gen.KernelIdeal.Frame
import proofs.«138859_j47330539602050_1_alg».proof.Proof.LibPerceptron
import Idealize.ShloMosaic.Lib.Pipeline.Value

noncomputable section

namespace Cert.KernelIdeal.Region2

open Cert.KernelIdeal Cert.KernelIdeal.Gen Idealize.ShloMosaic Idealize.ShloMosaic.TcCoe Idealize.SL.Sem
open Idealize.ShloMosaic.ValueIdx Cert.Perceptron
open Idealize.ShloMosaic.Pipeline (Dat)

-- the contents of the TensorCore's buffers when the region is entered: any
variable (V : (c : Dev nD) → (b : Ref sig .tc) → Buf (Elt Ideal) ((c : Thread nD τ).loc b))

theorem hz : (![0, 0] : Fin 2 → Nat) = fun _ => 0 := funext fun a => by fin_cases a <;> rfl

/-- The body's arithmetic is the block form of the perceptron of the sum of its first two blocks (the identity casts the
    body passes its blocks through change nothing). -/
theorem pay_eq (v0 v1 : Vec Ideal S2000x128 .f32) (v5 : Vec Ideal S128x128 .f32) (v8 : Vec Ideal S1x128 .f32)
    (v15 : Vec Ideal S128x128 .f32) (v18 : Vec Ideal S1x128 .f32) :
    k2_pay1 (F := Ideal) v0 v1 v5 v8 v15 v18
      = blockMlp bitsLt_bf16_f32 broadcasts_S1x128_S2000x128 broadcasts_S1x128_S2000x128 (addf v0 v1) v5 v8 v15 v18 := by
  unfold k2_pay1
  simp only [shapeCast_self]
  rfl

/-- The printed index maps, decided over the grid: the row windows (the two inputs and the output) are at block (t, 0), -/
theorem idx_rows : ∀ t : Fin cfg2.N, win2_0.index t (0 : Fin 2) = t.val ∧ win2_0.index t (1 : Fin 2) = 0
    ∧ win2_1.index t (0 : Fin 2) = t.val ∧ win2_1.index t (1 : Fin 2) = 0
    ∧ win2_6.index t (0 : Fin 2) = t.val ∧ win2_6.index t (1 : Fin 2) = 0 :=
  (by decide +kernel : ∀ t : Fin grid2.N, _)

/-- and the weights and bias rows are at block (0, 0) at every point. -/
theorem idx_fixed : ∀ t : Fin cfg2.N, win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-! ## Each input block, read where it sits in its array -/

/-- Row p of point t's block of the node features is row 2000·t + p of the array. -/
theorem feat_read (c : Dev nD) (t : Fin cfg2.N) (p : Fin 2000) (d : Fin 128) (r : Fin 20000) (hr : r.val = 2000 * t.val + p.val) :
    (iblk2 V c 0 t : Vec Ideal S2000x128 .f32) (ix2 p d) = (V c main_v29 : S20000x128.Idx → EReal) (ix2 r d) := by
  obtain ⟨e0, e1, -⟩ := idx_rows t
  unfold iblk2
  rw [View.read_apply]
  show V c main_v29 _ = V c main_v29 _
  refine congrArg (V c main_v29) (funext fun a => Fin.ext ?_)
  match a with
  | ⟨0, _⟩ => show win2_0.index t (0 : Fin 2) * 2000 + 1 * p.val = r.val; rw [e0, hr]; omega
  | ⟨1, _⟩ => show win2_0.index t (1 : Fin 2) * 128 + 1 * d.val = d.val; rw [e1]; omega

/-- Row p of point t's block of the aggregate is row 2000·t + p of the array. -/
theorem agg_read (c : Dev nD) (t : Fin cfg2.N) (p : Fin 2000) (d : Fin 128) (r : Fin 20000) (hr : r.val = 2000 * t.val + p.val) :
    (iblk2 V c 1 t : Vec Ideal S2000x128 .f32) (ix2 p d) = (V c main_v39 : S20000x128.Idx → EReal) (ix2 r d) := by
  obtain ⟨-, -, e0, e1, -⟩ := idx_rows t
  unfold iblk2
  rw [View.read_apply]
  show V c main_v39 _ = V c main_v39 _
  refine congrArg (V c main_v39) (funext fun a => Fin.ext ?_)
  match a with
  | ⟨0, _⟩ => show win2_1.index t (0 : Fin 2) * 2000 + 1 * p.val = r.val; rw [e0, hr]; omega
  | ⟨1, _⟩ => show win2_1.index t (1 : Fin 2) * 128 + 1 * d.val = d.val; rw [e1]; omega

/-- The first weight matrix's one block is the matrix. -/
theorem w1_read (c : Dev nD) (t : Fin cfg2.N) (a b : Fin 128) :
    (iblk2 V c 2 t : Vec Ideal S128x128 .f32) (ix2 a b) = (V c main_arg10 : S128x128.Idx → EReal) (ix2 a b) := by
  obtain ⟨e0, e1, -⟩ := idx_fixed t
  unfold iblk2
  rw [View.read_apply]
  show V c main_arg10 _ = V c main_arg10 _
  refine congrArg (V c main_arg10) (funext fun x => Fin.ext ?_)
  match x with
  | ⟨0, _⟩ => show win2_2.index t (0 : Fin 2) * 128 + 1 * a.val = a.val; rw [e0]; omega
  | ⟨1, _⟩ => show win2_2.index t (1 : Fin 2) * 128 + 1 * b.val = b.val; rw [e1]; omega

/-- The first bias row's one block is the row. -/
theorem r1_read (c : Dev nD) (t : Fin cfg2.N) (b : Fin 128) :
    (iblk2 V c 3 t : Vec Ideal S1x128 .f32) (ix2 (0 : Fin 1) b) = (V c main_v40 : S1x128.Idx → EReal) (ix2 (0 : Fin 1) b) := by
  obtain ⟨-, -, e0, e1, -⟩ := idx_fixed t
  unfold iblk2
  rw [View.read_apply]
  show V c main_v40 _ = V c main_v40 _
  refine congrArg (V c main_v40) (funext fun x => Fin.ext ?_)
  match x with
  | ⟨0, _⟩ => show win2_3.index t (0 : Fin 2) * 1 + 1 * 0 = 0; rw [e0]
  | ⟨1, _⟩ => show win2_3.index t (1 : Fin 2) * 128 + 1 * b.val = b.val; rw [e1]; omega

/-- The second weight matrix's one block is the matrix. -/
theorem w2_read (c : Dev nD) (t : Fin cfg2.N) (a b : Fin 128) :
    (iblk2 V c 4 t : Vec Ideal S128x128 .f32) (ix2 a b) = (V c main_arg12 : S128x128.Idx → EReal) (ix2 a b) := by
  obtain ⟨-, -, -, -, e0, e1, -⟩ := idx_fixed t
  unfold iblk2
  rw [View.read_apply]
  show V c main_arg12 _ = V c main_arg12 _
  refine congrArg (V c main_arg12) (funext fun x => Fin.ext ?_)
  match x with
  | ⟨0, _⟩ => show win2_4.index t (0 : Fin 2) * 128 + 1 * a.val = a.val; rw [e0]; omega
  | ⟨1, _⟩ => show win2_4.index t (1 : Fin 2) * 128 + 1 * b.val = b.val; rw [e1]; omega

/-- The second bias row's one block is the row. -/
theorem r2_read (c : Dev nD) (t : Fin cfg2.N) (b : Fin 128) :
    (iblk2 V c 5 t : Vec Ideal S1x128 .f32) (ix2 (0 : Fin 1) b) = (V c main_v41 : S1x128.Idx → EReal) (ix2 (0 : Fin 1) b) := by
  obtain ⟨-, -, -, -, -, -, e0, e1⟩ := idx_fixed t
  unfold iblk2
  rw [View.read_apply]
  show V c main_v41 _ = V c main_v41 _
  refine congrArg (V c main_v41) (funext fun x => Fin.ext ?_)
  match x with
  | ⟨0, _⟩ => show win2_5.index t (0 : Fin 2) * 1 + 1 * 0 = 0; rw [e0]
  | ⟨1, _⟩ => show win2_5.index t (1 : Fin 2) * 128 + 1 * b.val = b.val; rw [e1]; omega

/-! ## The output array -/

/-- The array of rows of the region's six inputs as it finds them. -/
abbrev rowsOut (c : Dev nD) : FVec Ideal S20000x128 .f32 :=
  rowsMlp (V c main_v29 : FVec Ideal S20000x128 .f32) (V c main_v39 : FVec Ideal S20000x128 .f32)
    (V c main_arg10 : FVec Ideal S128x128 .f32) (V c main_v40 : FVec Ideal S1x128 .f32)
    (V c main_arg12 : FVec Ideal S128x128 .f32) (V c main_v41 : FVec Ideal S1x128 .f32)

/-- The row of the array that row p of point t's blocks is. -/
def rowAt (t : Fin cfg2.N) (p : Fin 2000) : Fin 20000 :=
  ⟨2000 * t.val + p.val, by have h : t.val < grid2.N := t.isLt; rw [N_2] at h; have := p.isLt; omega⟩

/-- What point t writes back is block t of the array of rows. -/
theorem flushed_eq (c : Dev nD) (t : Fin cfg2.N) :
    (dat2 V c).flushed 6 t = ((cfg2.win 6).blk t).view.read (Elt Ideal) (rowsOut V c) := by
  show (cfg2.win 6).cut (grid2.coords t) ((dat2 V c).after 6 t) = _
  rw [after2_6]
  unfold out2_6
  rw [View.canon_unit_zero hz]
  simp only [View.ld_unit_zero (S := S2000x128) hz, View.ld_unit_zero (S := S128x128) hz, View.ld_unit_zero (S := S1x128) hz]
  rw [pay_eq]
  funext j
  obtain ⟨p, q, rfl⟩ : ∃ (p : Fin 2000) (q : Fin 128), j = ix2 p q := ⟨j 0, j 1, eq_ix2 (n0 := 2000) (n1 := 128) j⟩
  rw [View.read_apply]
  obtain ⟨-, -, -, -, e0, e1⟩ := idx_rows t
  have hemb : ((cfg2.win 6).blk t).view.emb (ix2 p q) = (ix2 (rowAt t p) q : S20000x128.Idx) := by
    funext a; apply Fin.ext
    match a with
    | ⟨0, _⟩ => show win2_6.index t (0 : Fin 2) * 2000 + 1 * p.val = 2000 * t.val + p.val; rw [e0]; omega
    | ⟨1, _⟩ => show win2_6.index t (1 : Fin 2) * 128 + 1 * q.val = q.val; rw [e1]; omega
  rw [hemb]
  exact blockMlp_rows bitsLt_bf16_f32 broadcasts_S1x128_S2000x128 broadcasts_S1x128_S2000x128
    (V c main_v29 : FVec Ideal S20000x128 .f32) (V c main_v39 : FVec Ideal S20000x128 .f32)
    (addf (iblk2 V c 0 t : Vec Ideal S2000x128 .f32) (iblk2 V c 1 t : Vec Ideal S2000x128 .f32))
    (V c main_arg10 : FVec Ideal S128x128 .f32) (iblk2 V c 2 t : Vec Ideal S128x128 .f32)
    (V c main_v40 : FVec Ideal S1x128 .f32) (iblk2 V c 3 t : Vec Ideal S1x128 .f32)
    (V c main_arg12 : FVec Ideal S128x128 .f32) (iblk2 V c 4 t : Vec Ideal S128x128 .f32)
    (V c main_v41 : FVec Ideal S1x128 .f32) (iblk2 V c 5 t : Vec Ideal S1x128 .f32)
    (rowAt t)
    (fun p d => congrArg₂ (· + ·) (feat_read V c t p d (rowAt t p) rfl) (agg_read V c t p d (rowAt t p) rfl))
    (fun a b => w1_read V c t a b) (fun b => r1_read V c t b)
    (fun a b => w2_read V c t a b) (fun b => r2_read V c t b) p q

/-- An index of the output array is in point t's block iff each coordinate is in the block's range on its axis. -/
theorem mem_blk (t : Fin cfg2.N) (i : S20000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v42).slice (win2_6.rect t)).set ↔ _
  rw [View.set_slice_whole, Rect.mem_set_unit]
  exact Iff.rfl

/-- Every row is in the block of the point that is its quotient by 2000. -/
theorem cover (i : S20000x128.Idx) :
    ∃ t : Fin cfg2.N, (cfg2.win 6).flush t = true ∧ i ∈ ((cfg2.win 6).blk t).view.set := by
  have hi0 : (i 0).val < 20000 := (i 0).isLt
  have hi1 : (i 1).val < 128 := (i 1).isLt
  have hN : grid2.N = 10 := N_2
  have ht : (i 0).val / 2000 < grid2.N := by rw [hN]; omega
  obtain ⟨-, -, -, -, e0, e1⟩ := idx_rows ⟨(i 0).val / 2000, ht⟩
  refine ⟨⟨(i 0).val / 2000, ht⟩, flush2_6 _, ?_⟩
  rw [mem_blk]
  intro a
  match a with
  | ⟨0, _⟩ =>
    show win2_6.index ⟨(i 0).val / 2000, ht⟩ (0 : Fin 2) * 2000 ≤ (i 0).val
      ∧ (i 0).val < win2_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_6.index ⟨(i 0).val / 2000, ht⟩ (1 : Fin 2) * 128 ≤ (i 1).val
      ∧ (i 1).val < win2_6.index ⟨(i 0).val / 2000, ht⟩ (1 : Fin 2) * 128 + 128
    rw [e1]; omega

/-- The region leaves its output array at the array of rows of its six inputs. -/
theorem final (c : Dev nD) : (dat2 V c).arrAt 6 cfg2.N = rowsOut V c :=
  (dat2 V c).arrAt_eq_of_cover 6 (rowsOut V c) (fun t _ => flushed_eq V c t) cover

end Cert.KernelIdeal.Region2

end
-- ==== Proof.Stretches.lean ====
/-
  The three stretches of host operations of the kernel program, read at the buffers the regions take.

  Before each region the host gathers the rows of the current node features at the edges' sources, sums them into the
  edges' destinations from the zero array — the aggregate, by the same operations as the reference program's — and lays
  the layer's two biases out as [1, 128] rows. The first stretch also cuts the edge table into its sources and its
  destinations, which the later stretches read again. Every other buffer a stretch leaves as it found it. Each fact is
  stated for any contents of the buffers before the stretch.
-/
import proofs.«138859_j47330539602050_1_alg».proof.Proof.Gen.KernelIdeal.Launch
import proofs.«138859_j47330539602050_1_alg».proof.Proof.RefLayers
import Idealize.ShloMosaic.Lib.StableHlo.Run

noncomputable section

namespace Cert.KernelIdeal.Stretches

open Cert.KernelIdeal Cert.KernelIdeal.Gen Idealize.ShloMosaic Idealize.ShloMosaic.TcCoe Idealize.SL.Sem
open Idealize.ShloMosaic.StableHlo
open Cert.RefLayers (srcOf dstOf aggregate)

/-- The first stretch cuts the sources out of the edge table, -/
theorem src0 (X : Valuation τ sig (Elt Ideal)) :
    StableHlo.after (hostOps0 (F := Ideal)) X (Proc.devRef .tc main_v1) = srcOf (X (Proc.devRef .tc main_arg1)) := by
  after_results <;> rfl

/-- and the destinations. -/
theorem dst0 (X : Valuation τ sig (Elt Ideal)) :
    StableHlo.after (hostOps0 (F := Ideal)) X (Proc.devRef .tc main_v3) = dstOf (X (Proc.devRef .tc main_arg1)) := by
  after_results <;> rfl

/-! ## The stretch before region 0 -/

/-- It leaves the aggregate of the node features it finds, over the edges it finds. -/
theorem agg0 (X : Valuation τ sig (Elt Ideal)) :
    StableHlo.after (hostOps0 (F := Ideal)) X (Proc.devRef .tc main_v13)
      = aggregate (srcOf (X (Proc.devRef .tc main_arg1))) (dstOf (X (Proc.devRef .tc main_arg1))) (X (Proc.devRef .tc main_arg0)) := by
  after_results <;> rfl

/-- It lays the first bias out as a [1, 128] row. -/
theorem biasRow0_1 (X : Valuation τ sig (Elt Ideal)) :
    StableHlo.after (hostOps0 (F := Ideal)) X (Proc.devRef .tc main_v14)
      = shapeCast S1x128 (X (Proc.devRef .tc main_arg3)) shapeCasts_S128_S1x128 := by
  after_results <;> rfl

/-- It lays the second bias out as a [1, 128] row. -/
theorem biasRow0_2 (X : Valuation τ sig (Elt Ideal)) :
    StableHlo.after (hostOps0 (F := Ideal)) X (Proc.devRef .tc main_v15)
      = shapeCast S1x128 (X (Proc.devRef .tc main_arg5)) shapeCasts_S128_S1x128 := by
  after_results <;> rfl

theorem keep0_arg0 (X : Valuation τ sig (Elt Ideal)) :
    StableHlo.after (hostOps0 (F := Ideal)) X (Proc.devRef .tc main_arg0) = X (Proc.devRef .tc main_arg0) := by
  after_results <;> rfl

theorem keep0_arg2 (X : Valuation τ sig (Elt Ideal)) :
    StableHlo.after (hostOps0 (F := Ideal)) X (Proc.devRef .tc main_arg2) = X (Proc.devRef .tc main_arg2) := by
  after_results <;> rfl

theorem keep0_arg4 (X : Valuation τ sig (Elt Ideal)) :
    StableHlo.after (hostOps0 (F := Ideal)) X (Proc.devRef .tc main_arg4) = X (Proc.devRef .tc main_arg4) := by
  after_results <;> rfl

theorem keep0_arg6 (X : Valuation τ sig (Elt Ideal)) :
    StableHlo.after (hostOps0 (F := Ideal)) X (Proc.devRef .tc main_arg6) = X (Proc.devRef .tc main_arg6) := by
  after_results <;> rfl

theorem keep0_arg7 (X : Valuation τ sig (Elt Ideal)) :
    StableHlo.after (hostOps0 (F := Ideal)) X (Proc.devRef .tc main_arg7) = X (Proc.devRef .tc main_arg7) := by
  after_results <;> rfl

theorem keep0_arg8 (X : Valuation τ sig (Elt Ideal)) :
    StableHlo.after (hostOps0 (F := Ideal)) X (Proc.devRef .tc main_arg8) = X (Proc.devRef .tc main_arg8) := by
  after_results <;> rfl

theorem keep0_arg9 (X : Valuation τ sig (Elt Ideal)) :
    StableHlo.after (hostOps0 (F := Ideal)) X (Proc.devRef .tc main_arg9) = X (Proc.devRef .tc main_arg9) := by
  after_results <;> rfl

theorem keep0_arg10 (X : Valuation τ sig (Elt Ideal)) :
    StableHlo.after (hostOps0 (F := Ideal)) X (Proc.devRef .tc main_arg10) = X (Proc.devRef .tc main_arg10) := by
  after_results <;> rfl

theorem keep0_arg11 (X : Valuation τ sig (Elt Ideal)) :
    StableHlo.after (hostOps0 (F := Ideal)) X (Proc.devRef .tc main_arg11) = X (Proc.devRef .tc main_arg11) := by
  after_results <;> rfl

theorem keep0_arg12 (X : Valuation τ sig (Elt Ideal)) :
    StableHlo.after (hostOps0 (F := Ideal)) X (Proc.devRef .tc main_arg12) = X (Proc.devRef .tc main_arg12) := by
  after_results <;> rfl

theorem keep0_arg13 (X : Valuation τ sig (Elt Ideal)) :
    StableHlo.after (hostOps0 (F := Ideal)) X (Proc.devRef .tc main_arg13) = X (Proc.devRef .tc main_arg13) := by
  after_results <;> rfl

/-! ## The stretch before region 1 -/

/-- It leaves the aggregate of the node features it finds, over the edges it finds. -/
theorem agg1 (X : Valuation τ sig (Elt Ideal)) :
    StableHlo.after (hostOps1 (F := Ideal)) X (Proc.devRef .tc main_v26)
      = aggregate (X (Proc.devRef .tc main_v1)) (X (Proc.devRef .tc main_v3)) (X (Proc.devRef .tc main_v16)) := by
  after_results <;> rfl

/-- It lays the first bias out as a [1, 128] row. -/
theorem biasRow1_1 (X : Valuation τ sig (Elt Ideal)) :
    StableHlo.after (hostOps1 (F := Ideal)) X (Proc.devRef .tc main_v27)
      = shapeCast S1x128 (X (Proc.devRef .tc main_arg7)) shapeCasts_S128_S1x128 := by
  after_results <;> rfl

/-- It lays the second bias out as a [1, 128] row. -/
theorem biasRow1_2 (X : Valuation τ sig (Elt Ideal)) :
    StableHlo.after (hostOps1 (F := Ideal)) X (Proc.devRef .tc main_v28)
      = shapeCast S1x128 (X (Proc.devRef .tc main_arg9)) shapeCasts_S128_S1x128 := by
  after_results <;> rfl

theorem keep1_v1 (X : Valuation τ sig (Elt Ideal)) :
    StableHlo.after (hostOps1 (F := Ideal)) X (Proc.devRef .tc main_v1) = X (Proc.devRef .tc main_v1) := by
  after_results <;> rfl

theorem keep1_v3 (X : Valuation τ sig (Elt Ideal)) :
    StableHlo.after (hostOps1 (F := Ideal)) X (Proc.devRef .tc main_v3) = X (Proc.devRef .tc main_v3) := by
  after_results <;> rfl

theorem keep1_v16 (X : Valuation τ sig (Elt Ideal)) :
    StableHlo.after (hostOps1 (F := Ideal)) X (Proc.devRef .tc main_v16) = X (Proc.devRef .tc main_v16) := by
  after_results <;> rfl

theorem keep1_arg6 (X : Valuation τ sig (Elt Ideal)) :
    StableHlo.after (hostOps1 (F := Ideal)) X (Proc.devRef .tc main_arg6) = X (Proc.devRef .tc main_arg6) := by
  after_results <;> rfl

theorem keep1_arg8 (X : Valuation τ sig (Elt Ideal)) :
    StableHlo.after (hostOps1 (F := Ideal)) X (Proc.devRef .tc main_arg8) = X (Proc.devRef .tc main_arg8) := by
  after_results <;> rfl

theorem keep1_arg10 (X : Valuation τ sig (Elt Ideal)) :
    StableHlo.after (hostOps1 (F := Ideal)) X (Proc.devRef .tc main_arg10) = X (Proc.devRef .tc main_arg10) := by
  after_results <;> rfl

theorem keep1_arg11 (X : Valuation τ sig (Elt Ideal)) :
    StableHlo.after (hostOps1 (F := Ideal)) X (Proc.devRef .tc main_arg11) = X (Proc.devRef .tc main_arg11) := by
  after_results <;> rfl

theorem keep1_arg12 (X : Valuation τ sig (Elt Ideal)) :
    StableHlo.after (hostOps1 (F := Ideal)) X (Proc.devRef .tc main_arg12) = X (Proc.devRef .tc main_arg12) := by
  after_results <;> rfl

theorem keep1_arg13 (X : Valuation τ sig (Elt Ideal)) :
    StableHlo.after (hostOps1 (F := Ideal)) X (Proc.devRef .tc main_arg13) = X (Proc.devRef .tc main_arg13) := by
  after_results <;> rfl

/-! ## The stretch before region 2 -/

/-- It leaves the aggregate of the node features it finds, over the edges it finds. -/
theorem agg2 (X : Valuation τ sig (Elt Ideal)) :
    StableHlo.after (hostOps2 (F := Ideal)) X (Proc.devRef .tc main_v39)
      = aggregate (X (Proc.devRef .tc main_v1)) (X (Proc.devRef .tc main_v3)) (X (Proc.devRef .tc main_v29)) := by
  after_results <;> rfl

/-- It lays the first bias out as a [1, 128] row. -/
theorem biasRow2_1 (X : Valuation τ sig (Elt Ideal)) :
    StableHlo.after (hostOps2 (F := Ideal)) X (Proc.devRef .tc main_v40)
      = shapeCast S1x128 (X (Proc.devRef .tc main_arg11)) shapeCasts_S128_S1x128 := by
  after_results <;> rfl

/-- It lays the second bias out as a [1, 128] row. -/
theorem biasRow2_2 (X : Valuation τ sig (Elt Ideal)) :
    StableHlo.after (hostOps2 (F := Ideal)) X (Proc.devRef .tc main_v41)
      = shapeCast S1x128 (X (Proc.devRef .tc main_arg13)) shapeCasts_S128_S1x128 := by
  after_results <;> rfl

theorem keep2_v29 (X : Valuation τ sig (Elt Ideal)) :
    StableHlo.after (hostOps2 (F := Ideal)) X (Proc.devRef .tc main_v29) = X (Proc.devRef .tc main_v29) := by
  after_results <;> rfl

theorem keep2_arg10 (X : Valuation τ sig (Elt Ideal)) :
    StableHlo.after (hostOps2 (F := Ideal)) X (Proc.devRef .tc main_arg10) = X (Proc.devRef .tc main_arg10) := by
  after_results <;> rfl

theorem keep2_arg12 (X : Valuation τ sig (Elt Ideal)) :
    StableHlo.after (hostOps2 (F := Ideal)) X (Proc.devRef .tc main_arg12) = X (Proc.devRef .tc main_arg12) := by
  after_results <;> rfl

end Cert.KernelIdeal.Stretches

end
-- ==== Proof.KernelValue.lean ====
/-
  The kernel program's result is the network of its arguments.

  The buffer contents at the six segment boundaries are followed from the launch to the return. A stretch of host
  operations leaves, at the buffers the next region reads, the current node features, their aggregate over the edge
  list, the layer's weights and its biases as rows (Stretches); the region then leaves its output array at the array of
  rows of those six (Region0/1/2), which is the reference's layer of them (rows_eq_layer); buffers a segment does not
  write are carried across it unchanged. Three times over, the result buffer ends at three layers of the launch
  arguments: the network.
-/
import proofs.«138859_j47330539602050_1_alg».proof.Proof.KernelRun
import proofs.«138859_j47330539602050_1_alg».proof.Proof.Region0
import proofs.«138859_j47330539602050_1_alg».proof.Proof.Region1
import proofs.«138859_j47330539602050_1_alg».proof.Proof.Region2
import proofs.«138859_j47330539602050_1_alg».proof.Proof.Stretches

noncomputable section

namespace Cert.KernelIdeal.Layers

open Cert.KernelIdeal Cert.KernelIdeal.Gen Idealize.ShloMosaic Idealize.ShloMosaic.TcCoe Idealize.SL.Sem
open Cert.Perceptron
open Cert.RefLayers (srcOf dstOf aggregate layer net)

/-- The array of rows of z and its aggregate, with the biases laid out as rows, is the layer of z. -/
theorem rows_eq_layer (s d : IVec S640000 32) (z : FVec Ideal S20000x128 .f32) (W1 : FVec Ideal S128x128 .f32)
    (b1 : FVec Ideal S128 .f32) (W2 : FVec Ideal S128x128 .f32) (b2 : FVec Ideal S128 .f32) :
    rowsMlp z (aggregate s d z) W1 (shapeCast S1x128 b1 shapeCasts_S128_S1x128) W2 (shapeCast S1x128 b2 shapeCasts_S128_S1x128)
      = layer s d z W1 b1 W2 b2 := by
  unfold layer
  exact rowsMlp_eq_host _ _ _ _ _ _ _ _ _ _ _ _ _ _

variable (m : (ℓ : Loc nD τ sig) → Buf (Elt Ideal) ℓ) (ρ : Dev nD → PrngReg)

/-- The edges' sources and destinations, off the edge table as launched. -/
def src (c : Dev nD) : IVec S640000 32 := srcOf (m ((c : Thread nD τ).loc main_arg1))
def dst (c : Dev nD) : IVec S640000 32 := dstOf (m ((c : Thread nD τ).loc main_arg1))

/-- The node features after one, two and three layers. -/
def feat1 (c : Dev nD) : FVec Ideal S20000x128 .f32 :=
  layer (src m c) (dst m c) (m ((c : Thread nD τ).loc main_arg0)) (m ((c : Thread nD τ).loc main_arg2)) (m ((c : Thread nD τ).loc main_arg3)) (m ((c : Thread nD τ).loc main_arg4)) (m ((c : Thread nD τ).loc main_arg5))
def feat2 (c : Dev nD) : FVec Ideal S20000x128 .f32 :=
  layer (src m c) (dst m c) (feat1 m c) (m ((c : Thread nD τ).loc main_arg6)) (m ((c : Thread nD τ).loc main_arg7)) (m ((c : Thread nD τ).loc main_arg8)) (m ((c : Thread nD τ).loc main_arg9))
def feat3 (c : Dev nD) : FVec Ideal S20000x128 .f32 :=
  layer (src m c) (dst m c) (feat2 m c) (m ((c : Thread nD τ).loc main_arg10)) (m ((c : Thread nD τ).loc main_arg11)) (m ((c : Thread nD τ).loc main_arg12)) (m ((c : Thread nD τ).loc main_arg13))

/-! ## Layer 1 -/

theorem in0_feat (c : Dev nD) : W1 m ρ c (Proc.devRef .tc main_arg0) = m ((c : Thread nD τ).loc main_arg0) := Stretches.keep0_arg0 (W0 m ρ c)

theorem in0_agg (c : Dev nD) : W1 m ρ c (Proc.devRef .tc main_v13) = aggregate (src m c) (dst m c) (m ((c : Thread nD τ).loc main_arg0)) := Stretches.agg0 (W0 m ρ c)

theorem in0_w1 (c : Dev nD) : W1 m ρ c (Proc.devRef .tc main_arg2) = m ((c : Thread nD τ).loc main_arg2) := Stretches.keep0_arg2 (W0 m ρ c)

theorem in0_r1 (c : Dev nD) :
    W1 m ρ c (Proc.devRef .tc main_v14) = shapeCast S1x128 (m ((c : Thread nD τ).loc main_arg3)) shapeCasts_S128_S1x128 := Stretches.biasRow0_1 (W0 m ρ c)

theorem in0_w2 (c : Dev nD) : W1 m ρ c (Proc.devRef .tc main_arg4) = m ((c : Thread nD τ).loc main_arg4) := Stretches.keep0_arg4 (W0 m ρ c)

theorem in0_r2 (c : Dev nD) :
    W1 m ρ c (Proc.devRef .tc main_v15) = shapeCast S1x128 (m ((c : Thread nD τ).loc main_arg5)) shapeCasts_S128_S1x128 := Stretches.biasRow0_2 (W0 m ρ c)

/-- Region 0 leaves its output array at the layer of what it was given. -/
theorem out0 (c : Dev nD) : W2 m ρ c (Proc.devRef .tc main_v16) = feat1 m c := by
  refine (W2_arr m ρ c 6).trans ((Region0.final (V1 m ρ) c).trans ?_)
  show rowsMlp (W1 m ρ c (Proc.devRef .tc main_arg0) : FVec Ideal S20000x128 .f32) (W1 m ρ c (Proc.devRef .tc main_v13) : FVec Ideal S20000x128 .f32)
      (W1 m ρ c (Proc.devRef .tc main_arg2) : FVec Ideal S128x128 .f32) (W1 m ρ c (Proc.devRef .tc main_v14) : FVec Ideal S1x128 .f32)
      (W1 m ρ c (Proc.devRef .tc main_arg4) : FVec Ideal S128x128 .f32) (W1 m ρ c (Proc.devRef .tc main_v15) : FVec Ideal S1x128 .f32) = _
  rw [in0_feat, in0_agg, in0_w1, in0_r1, in0_w2, in0_r2]
  exact rows_eq_layer _ _ _ _ _ _ _

/-! ## Layer 2 -/

theorem mid1_src (c : Dev nD) : W2 m ρ c (Proc.devRef .tc main_v1) = src m c :=
  (W2_of_ne m ρ c main_v1 (by decide)).trans (Stretches.src0 (W0 m ρ c))
theorem mid1_dst (c : Dev nD) : W2 m ρ c (Proc.devRef .tc main_v3) = dst m c :=
  (W2_of_ne m ρ c main_v3 (by decide)).trans (Stretches.dst0 (W0 m ρ c))
theorem mid1_arg6 (c : Dev nD) : W2 m ρ c (Proc.devRef .tc main_arg6) = m ((c : Thread nD τ).loc main_arg6) :=
  (W2_of_ne m ρ c main_arg6 (by decide)).trans (Stretches.keep0_arg6 (W0 m ρ c))
theorem mid1_arg7 (c : Dev nD) : W2 m ρ c (Proc.devRef .tc main_arg7) = m ((c : Thread nD τ).loc main_arg7) :=
  (W2_of_ne m ρ c main_arg7 (by decide)).trans (Stretches.keep0_arg7 (W0 m ρ c))
theorem mid1_arg8 (c : Dev nD) : W2 m ρ c (Proc.devRef .tc main_arg8) = m ((c : Thread nD τ).loc main_arg8) :=
  (W2_of_ne m ρ c main_arg8 (by decide)).trans (Stretches.keep0_arg8 (W0 m ρ c))
theorem mid1_arg9 (c : Dev nD) : W2 m ρ c (Proc.devRef .tc main_arg9) = m ((c : Thread nD τ).loc main_arg9) :=
  (W2_of_ne m ρ c main_arg9 (by decide)).trans (Stretches.keep0_arg9 (W0 m ρ c))
theorem mid1_arg10 (c : Dev nD) : W2 m ρ c (Proc.devRef .tc main_arg10) = m ((c : Thread nD τ).loc main_arg10) :=
  (W2_of_ne m ρ c main_arg10 (by decide)).trans (Stretches.keep0_arg10 (W0 m ρ c))
theorem mid1_arg11 (c : Dev nD) : W2 m ρ c (Proc.devRef .tc main_arg11) = m ((c : Thread nD τ).loc main_arg11) :=
  (W2_of_ne m ρ c main_arg11 (by decide)).trans (Stretches.keep0_arg11 (W0 m ρ c))
theorem mid1_arg12 (c : Dev nD) : W2 m ρ c (Proc.devRef .tc main_arg12) = m ((c : Thread nD τ).loc main_arg12) :=
  (W2_of_ne m ρ c main_arg12 (by decide)).trans (Stretches.keep0_arg12 (W0 m ρ c))
theorem mid1_arg13 (c : Dev nD) : W2 m ρ c (Proc.devRef .tc main_arg13) = m ((c : Thread nD τ).loc main_arg13) :=
  (W2_of_ne m ρ c main_arg13 (by decide)).trans (Stretches.keep0_arg13 (W0 m ρ c))

theorem in1_feat (c : Dev nD) : W3 m ρ c (Proc.devRef .tc main_v16) = feat1 m c := (Stretches.keep1_v16 (W2 m ρ c)).trans (out0 m ρ c)

theorem in1_agg (c : Dev nD) : W3 m ρ c (Proc.devRef .tc main_v26) = aggregate (src m c) (dst m c) (feat1 m c) := by
  refine (Stretches.agg1 (W2 m ρ c)).trans ?_
  rw [mid1_src, mid1_dst, out0]

theorem in1_w1 (c : Dev nD) : W3 m ρ c (Proc.devRef .tc main_arg6) = m ((c : Thread nD τ).loc main_arg6) := (Stretches.keep1_arg6 (W2 m ρ c)).trans (mid1_arg6 m ρ c)

theorem in1_r1 (c : Dev nD) :
    W3 m ρ c (Proc.devRef .tc main_v27) = shapeCast S1x128 (m ((c : Thread nD τ).loc main_arg7)) shapeCasts_S128_S1x128 := by
  refine (Stretches.biasRow1_1 (W2 m ρ c)).trans ?_
  rw [mid1_arg7]

theorem in1_w2 (c : Dev nD) : W3 m ρ c (Proc.devRef .tc main_arg8) = m ((c : Thread nD τ).loc main_arg8) := (Stretches.keep1_arg8 (W2 m ρ c)).trans (mid1_arg8 m ρ c)

theorem in1_r2 (c : Dev nD) :
    W3 m ρ c (Proc.devRef .tc main_v28) = shapeCast S1x128 (m ((c : Thread nD τ).loc main_arg9)) shapeCasts_S128_S1x128 := by
  refine (Stretches.biasRow1_2 (W2 m ρ c)).trans ?_
  rw [mid1_arg9]

/-- Region 1 leaves its output array at the layer of what it was given. -/
theorem out1 (c : Dev nD) : W4 m ρ c (Proc.devRef .tc main_v29) = feat2 m c := by
  refine (W4_arr m ρ c 6).trans ((Region1.final (V3 m ρ) c).trans ?_)
  show rowsMlp (W3 m ρ c (Proc.devRef .tc main_v16) : FVec Ideal S20000x128 .f32) (W3 m ρ c (Proc.devRef .tc main_v26) : FVec Ideal S20000x128 .f32)
      (W3 m ρ c (Proc.devRef .tc main_arg6) : FVec Ideal S128x128 .f32) (W3 m ρ c (Proc.devRef .tc main_v27) : FVec Ideal S1x128 .f32)
      (W3 m ρ c (Proc.devRef .tc main_arg8) : FVec Ideal S128x128 .f32) (W3 m ρ c (Proc.devRef .tc main_v28) : FVec Ideal S1x128 .f32) = _
  rw [in1_feat, in1_agg, in1_w1, in1_r1, in1_w2, in1_r2]
  exact rows_eq_layer _ _ _ _ _ _ _

/-! ## Layer 3 -/

theorem mid2_src (c : Dev nD) : W4 m ρ c (Proc.devRef .tc main_v1) = src m c :=
  (W4_of_ne m ρ c main_v1 (by decide)).trans ((Stretches.keep1_v1 (W2 m ρ c)).trans (mid1_src m ρ c))
theorem mid2_dst (c : Dev nD) : W4 m ρ c (Proc.devRef .tc main_v3) = dst m c :=
  (W4_of_ne m ρ c main_v3 (by decide)).trans ((Stretches.keep1_v3 (W2 m ρ c)).trans (mid1_dst m ρ c))
theorem mid2_arg10 (c : Dev nD) : W4 m ρ c (Proc.devRef .tc main_arg10) = m ((c : Thread nD τ).loc main_arg10) :=
  (W4_of_ne m ρ c main_arg10 (by decide)).trans ((Stretches.keep1_arg10 (W2 m ρ c)).trans (mid1_arg10 m ρ c))
theorem mid2_arg11 (c : Dev nD) : W4 m ρ c (Proc.devRef .tc main_arg11) = m ((c : Thread nD τ).loc main_arg11) :=
  (W4_of_ne m ρ c main_arg11 (by decide)).trans ((Stretches.keep1_arg11 (W2 m ρ c)).trans (mid1_arg11 m ρ c))
theorem mid2_arg12 (c : Dev nD) : W4 m ρ c (Proc.devRef .tc main_arg12) = m ((c : Thread nD τ).loc main_arg12) :=
  (W4_of_ne m ρ c main_arg12 (by decide)).trans ((Stretches.keep1_arg12 (W2 m ρ c)).trans (mid1_arg12 m ρ c))
theorem mid2_arg13 (c : Dev nD) : W4 m ρ c (Proc.devRef .tc main_arg13) = m ((c : Thread nD τ).loc main_arg13) :=
  (W4_of_ne m ρ c main_arg13 (by decide)).trans ((Stretches.keep1_arg13 (W2 m ρ c)).trans (mid1_arg13 m ρ c))

theorem in2_feat (c : Dev nD) : W5 m ρ c (Proc.devRef .tc main_v29) = feat2 m c := (Stretches.keep2_v29 (W4 m ρ c)).trans (out1 m ρ c)

theorem in2_agg (c : Dev nD) : W5 m ρ c (Proc.devRef .tc main_v39) = aggregate (src m c) (dst m c) (feat2 m c) := by
  refine (Stretches.agg2 (W4 m ρ c)).trans ?_
  rw [mid2_src, mid2_dst, out1]

theorem in2_w1 (c : Dev nD) : W5 m ρ c (Proc.devRef .tc main_arg10) = m ((c : Thread nD τ).loc main_arg10) := (Stretches.keep2_arg10 (W4 m ρ c)).trans (mid2_arg10 m ρ c)

theorem in2_r1 (c : Dev nD) :
    W5 m ρ c (Proc.devRef .tc main_v40) = shapeCast S1x128 (m ((c : Thread nD τ).loc main_arg11)) shapeCasts_S128_S1x128 := by
  refine (Stretches.biasRow2_1 (W4 m ρ c)).trans ?_
  rw [mid2_arg11]

theorem in2_w2 (c : Dev nD) : W5 m ρ c (Proc.devRef .tc main_arg12) = m ((c : Thread nD τ).loc main_arg12) := (Stretches.keep2_arg12 (W4 m ρ c)).trans (mid2_arg12 m ρ c)

theorem in2_r2 (c : Dev nD) :
    W5 m ρ c (Proc.devRef .tc main_v41) = shapeCast S1x128 (m ((c : Thread nD τ).loc main_arg13)) shapeCasts_S128_S1x128 := by
  refine (Stretches.biasRow2_2 (W4 m ρ c)).trans ?_
  rw [mid2_arg13]

/-- Region 2 leaves its output array at the layer of what it was given. -/
theorem out2 (c : Dev nD) : W6 m ρ c (Proc.devRef .tc main_v42) = feat3 m c := by
  refine (W6_arr m ρ c 6).trans ((Region2.final (V5 m ρ) c).trans ?_)
  show rowsMlp (W5 m ρ c (Proc.devRef .tc main_v29) : FVec Ideal S20000x128 .f32) (W5 m ρ c (Proc.devRef .tc main_v39) : FVec Ideal S20000x128 .f32)
      (W5 m ρ c (Proc.devRef .tc main_arg10) : FVec Ideal S128x128 .f32) (W5 m ρ c (Proc.devRef .tc main_v40) : FVec Ideal S1x128 .f32)
      (W5 m ρ c (Proc.devRef .tc main_arg12) : FVec Ideal S128x128 .f32) (W5 m ρ c (Proc.devRef .tc main_v41) : FVec Ideal S1x128 .f32) = _
  rw [in2_feat, in2_agg, in2_w1, in2_r1, in2_w2, in2_r2]
  exact rows_eq_layer _ _ _ _ _ _ _

/-! ## The result -/

/-- The result buffer ends at the network of the launch arguments. -/
theorem result_eq_net (c : Dev nD) : W6 m ρ c (Proc.devRef .tc main_v42)
    = net (m ((c : Thread nD τ).loc main_arg1)) (m ((c : Thread nD τ).loc main_arg0))
        (m ((c : Thread nD τ).loc main_arg2)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) (m ((c : Thread nD τ).loc main_arg13)) :=
  (out2 m ρ c).trans rfl

/-- The kernel program's run: the result at the network of the arguments, the arguments unchanged. -/
theorem run_net : θ_run defs (onTc (τ := τ) (main (F := Ideal))) ⟨m, fun _ => 0, ρ⟩ (fun r => ∀ c : Dev nD,
      r.2.mem ((c.tc : Thread nD τ).loc main_v42)
        = net (m ((c : Thread nD τ).loc main_arg1)) (m ((c : Thread nD τ).loc main_arg0))
            (m ((c : Thread nD τ).loc main_arg2)) (m ((c : Thread nD τ).loc main_arg3)) (m ((c : Thread nD τ).loc main_arg4)) (m ((c : Thread nD τ).loc main_arg5))
            (m ((c : Thread nD τ).loc main_arg6)) (m ((c : Thread nD τ).loc main_arg7)) (m ((c : Thread nD τ).loc main_arg8)) (m ((c : Thread nD τ).loc main_arg9))
            (m ((c : Thread nD τ).loc main_arg10)) (m ((c : Thread nD τ).loc main_arg11)) (m ((c : Thread nD τ).loc main_arg12)) (m ((c : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (result_eq_net m ρ c), (h c).2⟩) (run_result m ρ)

end Cert.KernelIdeal.Layers

end
-- ==== Proof.lean ====
/-
  The proof of Cert.Claim (Defs.lean): the kernel program and the reference compute the same three-layer network.

  Both programs take node features x (20000 rows of 128), an edge list and, per layer, two 128×128 weight matrices with
  their biases. A layer replaces the features z by
      max (max ((z + A z) · W1 + b1, 0) · W2 + b2, 0),
  A z being, row by row, the sum of the rows of z at the sources of the node's incoming edges. The reference computes a
  layer over the whole array at once; the kernel program computes A z by the same host operations and hands z, A z, the
  weights and the biases to a pallas_call that works through the rows 2000 at a time, with both operands of each product
  narrowed to bf16 first. At exact values the narrowing is the identity, and a row's result depends on that row alone,
  so the ten blocks of the pallas_call's output are the ten blocks of rows of the reference's layer: no law of
  arithmetic is used beyond reading both sides as the same sums of the same products, and the precondition (finite
  inputs) is not needed.
  * Proof/LibPerceptron.lean: the two rectified dense layers of a row; the host's and a block's way of computing them.
  * Proof/RefLayers.lean: the reference's result is three layers of its arguments (net).
  * Proof/Region0.lean, Region1.lean, Region2.lean: each pallas_call leaves the array of rows of its six inputs.
  * Proof/Stretches.lean: what the host operations before each pallas_call leave at the buffers it reads.
  * Proof/KernelRun.lean, KernelValue.lean: the kernel program's run, its result followed through the six segments.
  The three frames are the generated ones (the reference's its generated run with the result dropped); the ideal pass
  rewrote nothing, so there is nothing to preserve.
-/
import proofs.«138859_j47330539602050_1_alg».proof.Defs
import proofs.«138859_j47330539602050_1_alg».proof.Proof.Gen.Kernel
import proofs.«138859_j47330539602050_1_alg».proof.Proof.Gen.Kernel.Frame
import proofs.«138859_j47330539602050_1_alg».proof.Proof.Gen.KernelIdeal
import proofs.«138859_j47330539602050_1_alg».proof.Proof.Gen.KernelIdeal.Frame
import proofs.«138859_j47330539602050_1_alg».proof.Proof.Gen.ReferenceIdeal
import proofs.«138859_j47330539602050_1_alg».proof.Proof.Gen.ReferenceIdeal.Run
import proofs.«138859_j47330539602050_1_alg».proof.Proof.Gen.Pre_finite_inputs
import proofs.«138859_j47330539602050_1_alg».proof.Proof.RefLayers
import proofs.«138859_j47330539602050_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of their arguments in the result, and the arguments agree. -/
theorem algebraic : Cert.algebraic_KernelIdeal_ReferenceIdeal := by
  intro m ρ m' ρ' _ hagree
  refine ⟨_, Cert.KernelIdeal.Layers.run_net m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.RefLayers.result_eq_net, h0, h1, h2, h3, h4, h5, h6, h7, h8, h9, h10, h11, h12, h13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
